-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S256x64 : Shape := ⟨2, ![256, 64]⟩
abbrev S64x256 : Shape := ⟨2, ![64, 256]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S256x64 : S_.BroadcastsInDim S256x64 (![] : Fin 0 → Fin S256x64.rank)
  reducesTo_S256x64_S_d0_1 : S256x64.ReducesTo [0, 1] S_
  bcast_S_S64x256 : S_.BroadcastsInDim S64x256 (![] : Fin 0 → Fin S64x256.rank)
  reducesTo_S64x256_S_d0_1 : S64x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S64x256 .f32) (main_arg5 : FVec F S256x128 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x256 .f32) (main_arg3 : FVec F S256x64 .f32) (main_arg4 : FVec F S64x256 .f32) (main_arg5 : FVec F S256x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S256x64 : Shape := ⟨2, ![256, 64]⟩
abbrev S64x256 : Shape := ⟨2, ![64, 256]⟩
abbrev S256x128 : Shape := ⟨2, ![256, 128]⟩
abbrev S10000x256 : Shape := ⟨2, ![10000, 256]⟩
abbrev S400x128 : Shape := ⟨2, ![400, 128]⟩
abbrev S400x256 : Shape := ⟨2, ![400, 256]⟩
abbrev S10000x64 : Shape := ⟨2, ![10000, 64]⟩
abbrev S80x10000 : Shape := ⟨2, ![80, 10000]⟩
abbrev S80x64 : Shape := ⟨2, ![80, 64]⟩
abbrev S80x256 : Shape := ⟨2, ![80, 256]⟩
abbrev S400x10000 : Shape := ⟨2, ![400, 10000]⟩
abbrev S400x64 : Shape := ⟨2, ![400, 64]⟩

abbrev nBuf : Space → Nat
  | .hbm => 16
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256x64, .f32⟩
  | .hbm, ⟨4, _⟩ => ⟨S64x256, .f32⟩
  | .hbm, ⟨5, _⟩ => ⟨S256x128, .f32⟩
  | .hbm, ⟨6, _⟩ => ⟨S10000x256, .bf16⟩
  | .hbm, ⟨7, _⟩ => ⟨S256x64, .bf16⟩
  | .hbm, ⟨8, _⟩ => ⟨S10000x10000, .bf16⟩
  | .hbm, ⟨9, _⟩ => ⟨S10000x64, .bf16⟩
  | .hbm, ⟨10, _⟩ => ⟨S64x256, .bf16⟩
  | .hbm, ⟨11, _⟩ => ⟨S10000x64, .f32⟩
  | .hbm, ⟨12, _⟩ => ⟨S10000x256, .bf16⟩
  | .hbm, ⟨13, _⟩ => ⟨S256x128, .bf16⟩
  | .hbm, ⟨14, _⟩ => ⟨S10000x128, .bf16⟩
  | .hbm, ⟨15, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S128x256, .f32⟩
  | .local _ .vmem, ⟨3, _⟩ => ⟨S400x256, .bf16⟩
  | .local _ .vmem, ⟨4, _⟩ => ⟨S400x256, .bf16⟩
  | .local _ .vmem, ⟨5, _⟩ => ⟨S80x10000, .f32⟩
  | .local _ .vmem, ⟨6, _⟩ => ⟨S80x10000, .f32⟩
  | .local _ .vmem, ⟨7, _⟩ => ⟨S10000x256, .bf16⟩
  | .local _ .vmem, ⟨8, _⟩ => ⟨S256x64, .bf16⟩
  | .local _ .vmem, ⟨9, _⟩ => ⟨S80x10000, .bf16⟩
  | .local _ .vmem, ⟨10, _⟩ => ⟨S80x10000, .bf16⟩
  | .local _ .vmem, ⟨11, _⟩ => ⟨S80x64, .bf16⟩
  | .local _ .vmem, ⟨12, _⟩ => ⟨S80x64, .bf16⟩
  | .local _ .vmem, ⟨13, _⟩ => ⟨S400x10000, .bf16⟩
  | .local _ .vmem, ⟨14, _⟩ => ⟨S400x10000, .bf16⟩
  | .local _ .vmem, ⟨15, _⟩ => ⟨S10000x64, .bf16⟩
  | .local _ .vmem, ⟨16, _⟩ => ⟨S64x256, .bf16⟩
  | .local _ .vmem, ⟨17, _⟩ => ⟨S400x64, .f32⟩
  | .local _ .vmem, ⟨18, _⟩ => ⟨S400x64, .f32⟩
  | .local _ .vmem, ⟨19, _⟩ => ⟨S400x256, .bf16⟩
  | .local _ .vmem, ⟨20, _⟩ => ⟨S400x256, .bf16⟩
  | .local _ .vmem, ⟨21, _⟩ => ⟨S400x10000, .bf16⟩
  | .local _ .vmem, ⟨22, _⟩ => ⟨S400x10000, .bf16⟩
  | .local _ .vmem, ⟨23, _⟩ => ⟨S10000x256, .bf16⟩
  | .local _ .vmem, ⟨24, _⟩ => ⟨S256x128, .bf16⟩
  | .local _ .vmem, ⟨25, _⟩ => ⟨S400x128, .bf16⟩
  | .local _ .vmem, ⟨26, _⟩ => ⟨S400x128, .bf16⟩
  | .local _ .vmem, ⟨27, _⟩ => ⟨S400x10000, .bf16⟩
  | .local _ .vmem, ⟨28, _⟩ => ⟨S400x10000, .bf16⟩
  | .local _ .vmem, ⟨29, _⟩ => ⟨S10000x128, .bf16⟩
  | .local _ .vmem, ⟨30, _⟩ => ⟨S400x128, .f32⟩
  | .local _ .vmem, ⟨31, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S80x10000 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S80x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S400x128_S400x128_0_0 : ∀ a, (![0, 0] : Fin 2 → Nat) a + S400x128.size a ≤ S400x128.size a
  h_S400x128 : 0 < S400x128.numel
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  inb_S80x10000_S80x10000_0_0 : ∀ a, (![0, 0] : Fin 2 → Nat) a + S80x10000.size a ≤ S80x10000.size a
  h_S80x10000 : 0 < S80x10000.numel
  packedbf16_S80x10000_S80x10000_0_0 : (Rect.unit (s := S80x10000) ![0, 0] S80x10000.size inb_S80x10000_S80x10000_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S80x64_S80x64_0_0 : ∀ a, (![0, 0] : Fin 2 → Nat) a + S80x64.size a ≤ S80x64.size a
  h_S80x64 : 0 < S80x64.numel
  packedbf16_S80x64_S80x64_0_0 : (Rect.unit (s := S80x64) ![0, 0] S80x64.size inb_S80x64_S80x64_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x64_S400x64_0_0 : ∀ a, (![0, 0] : Fin 2 → Nat) a + S400x64.size a ≤ S400x64.size a
  h_S400x64 : 0 < S400x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S400x128_S400x128_0_0 : (Rect.unit (s := S400x128) ![0, 0] S400x128.size inb_S400x128_S400x128_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  dot_S400x128_S128x256_S400x256_1_0_0_1_n_n_wf : DotDims.WF S400x128 S128x256 S400x256 [1] [0] [0] [1] [] []
  dot_S80x10000_S10000x256_S80x256_1_0_0_1_n_n_wf : DotDims.WF S80x10000 S10000x256 S80x256 [1] [0] [0] [1] [] []
  dot_S80x256_S256x64_S80x64_1_0_0_1_n_n_wf : DotDims.WF S80x256 S256x64 S80x64 [1] [0] [0] [1] [] []
  dot_S400x10000_S10000x64_S400x64_1_0_0_1_n_n_wf : DotDims.WF S400x10000 S10000x64 S400x64 [1] [0] [0] [1] [] []
  dot_S400x64_S64x256_S400x256_1_0_0_1_n_n_wf : DotDims.WF S400x64 S64x256 S400x256 [1] [0] [0] [1] [] []
  dot_S400x10000_S10000x256_S400x256_1_0_0_1_n_n_wf : DotDims.WF S400x10000 S10000x256 S400x256 [1] [0] [0] [1] [] []
  dot_S400x256_S256x128_S400x128_1_0_0_1_n_n_wf : DotDims.WF S400x256 S256x128 S400x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x256.size a ≤ S10000x256.size a
  hwx0_2 : ∀ i : grid0.Coords, EltTy.bits .bf16 = 32 ∨ (Rect.block (s := S10000x256) S400x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x10000.size a ≤ S10000x10000.size a
  hwx1_0 : ∀ i : grid1.Coords, EltTy.bits .f32 = 32 ∨ (Rect.block (s := S10000x10000) S80x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .bf16 = 32 ∨ (Rect.block (s := S256x64) S256x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S80x10000.size a ≤ S10000x10000.size a
  hwx1_3 : ∀ i : grid1.Coords, EltTy.bits .bf16 = 32 ∨ (Rect.block (s := S10000x10000) S80x10000.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S80x64.size a ≤ S10000x64.size a
  hwx1_4 : ∀ i : grid1.Coords, EltTy.bits .bf16 = 32 ∨ (Rect.block (s := S10000x64) S80x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x256.size a ≤ S64x256.size a
  hwx2_2 : ∀ i : grid2.Coords, EltTy.bits .bf16 = 32 ∨ (Rect.block (s := S64x256) S64x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x256.size a ≤ S10000x256.size a
  hwx2_4 : ∀ i : grid2.Coords, EltTy.bits .bf16 = 32 ∨ (Rect.block (s := S10000x256) S400x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .bf16 = 32 ∨ (Rect.block (s := S10000x256) S10000x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .bf16 = 32 ∨ (Rect.block (s := S256x128) S256x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x128.size a ≤ S10000x128.size a
  hwx3_3 : ∀ i : grid3.Coords, EltTy.bits .bf16 = 32 ∨ (Rect.block (s := S10000x128) S400x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .bf16 = 32 ∨ (Rect.block (s := S10000x128) S10000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x128.size a ≤ S10000x128.size a
  hwx4_2 : ∀ i : grid4.Coords, EltTy.bits .f32 = 32 ∨ (Rect.block (s := S10000x128) S400x128.size (cc4_transform_2 i) (hinb4_2 i)).WholeWords (EltTy.packing .f32)

variable [Facts₀]

def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S80x10000_S10000x256_S80x256_1_0_0_1_n_n : DotDims S80x10000 S10000x256 S80x256 where
  lhsContracting := [1]
  rhsContracting := [0]
  lhsNonContracting := [0]
  rhsNonContracting := [1]
  lhsBatch := []
  rhsBatch := []
  wf := dot_S80x10000_S10000x256_S80x256_1_0_0_1_n_n_wf
def dot_S80x256_S256x64_S80x64_1_0_0_1_n_n : DotDims S80x256 S256x64 S80x64 where
  lhsContracting := [1]
  rhsContracting := [0]
  lhsNonContracting := [0]
  rhsNonContracting := [1]
  lhsBatch := []
  rhsBatch := []
  wf := dot_S80x256_S256x64_S80x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x256_S400x256_1_0_0_1_n_n : DotDims S400x64 S64x256 S400x256 where
  lhsContracting := [1]
  rhsContracting := [0]
  lhsNonContracting := [0]
  rhsNonContracting := [1]
  lhsBatch := []
  rhsBatch := []
  wf := dot_S400x64_S64x256_S400x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S80x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S80x10000.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S80x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v2_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_1) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S64x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4_0) S400x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4_1) S400x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v2_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4_1) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S400x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v2_0) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v7) S400x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S256x64 : Shape := ⟨2, ![256, 64]⟩
abbrev S64x256 : Shape := ⟨2, ![64, 256]⟩
abbrev S256x128 : Shape := ⟨2, ![256, 128]⟩
abbrev S10000x256 : Shape := ⟨2, ![10000, 256]⟩
abbrev S_ : Shape := ⟨0, ![]⟩
abbrev S10000x64 : Shape := ⟨2, ![10000, 64]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256x64, .f32⟩
  | .hbm, ⟨4, _⟩ => ⟨S64x256, .f32⟩
  | .hbm, ⟨5, _⟩ => ⟨S256x128, .f32⟩
  | .hbm, ⟨6, _⟩ => ⟨S10000x256, .f32⟩
  | .hbm, ⟨7, _⟩ => ⟨S10000x256, .f32⟩
  | .hbm, ⟨8, _⟩ => ⟨S_, .f32⟩
  | .hbm, ⟨9, _⟩ => ⟨S10000x256, .f32⟩
  | .hbm, ⟨10, _⟩ => ⟨S10000x256, .f32⟩
  | .hbm, ⟨11, _⟩ => ⟨S10000x64, .f32⟩
  | .hbm, ⟨12, _⟩ => ⟨S10000x64, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S10000x256, .f32⟩
  | .hbm, ⟨17, _⟩ => ⟨S10000x256, .f32⟩
  | .hbm, ⟨18, _⟩ => ⟨S10000x128, .f32⟩
  | .hbm, ⟨19, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_cst : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []
  dot_S10000x64_S64x256_S10000x256_1_0_0_1_n_n_wf : DotDims.WF S10000x64 S64x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x256_S10000x256_1_0_0_1_n_n : DotDims S10000x64 S64x256 S10000x256 where
  lhsContracting := [1]
  rhsContracting := [0]
  lhsNonContracting := [0]
  rhsNonContracting := [1]
  lhsBatch := []
  rhsBatch := []
  wf := dot_S10000x64_S64x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.ResultsRun.lean ====
/-
  The idealized kernel's run with its two results named. @main is five pallas_calls among three host conversions; the
  buffer contents at each boundary are a fold from the launch memory (`Gen.W0` … `Gen.W8`), and the launch theorem for
  several regions leaves EVERY unscoped buffer at the last boundary's contents `Gen.W8`. The frame claim reads only the
  six arguments off that state; here the two result buffers are read off it as well, so that a value proof can follow
  them back through the fold.
-/
import proofs.«157463_g22960895165167_cont_sun_c4_657_3_alg».proof.Proof.Gen.KernelIdeal.Frame

set_option maxRecDepth 16384

noncomputable section

namespace Cert.KernelIdeal.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the six arguments as launched. -/
theorem run_results : θ_run defs (onTc (τ := τ) (main (F := F))) ⟨m, fun _ => 0, ρ⟩ (fun r => ∀ c : Dev nD,
      r.2.mem ((c.tc : Thread nD τ).loc main_v4_0) = W8 m ρ c (Proc.devRef .tc main_v4_0)
      ∧ r.2.mem ((c.tc : Thread nD τ).loc main_v7) = W8 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v4_0 (by decide)),
       h c _ (mem_uc main_v7 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Stack

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.GcnSpec.lean ====
/-
  The mathematics both programs compute. A two-layer graph-convolution encoder followed by its two-layer decoder over
  a dense adjacency: with `prod` the matrix product and `relu` the entrywise maximum with zero,
      hidden = relu (adj · (x · W1))        emb = adj · (hidden · W2)
      hidden' = relu (adj · (emb · W3))      out = adj · (hidden' · W4),
  every product grouped `adj · (h · W)`. The kernel computes each product a block of rows at a time; the one law that
  joins a block to the whole is that SELECTING ROWS COMMUTES WITH A PRODUCT ON THE LEFT AND WITH relu: row `r` of
  `a · w` depends on row `r` of `a` only. Nothing here needs an entry to be finite: the law moves no factor across a
  sum and cancels nothing.
-/
import proofs.«157463_g22960895165167_cont_sun_c4_657_3_alg».proof.Proof.LibMatProd

noncomputable section

namespace Cert.GcnStack

open Idealize.ShloMosaic Idealize.ShloMosaic.ValueIdx Cert.Gcn.Dense

/-- An `M × N` array of extended reals. -/
abbrev Mat (M N : Nat) : Type := (⟨2, ![M, N]⟩ : Shape).Idx → EReal

/-- The entrywise maximum with the zero word (the same word in both programs, so it is never evaluated). -/
def relu {ι : Type} (a : ι → EReal) : ι → EReal := fun i => max (a i) (Ideal.ofBits .f32 0x00000000#32)

/-- The rows `e 0, e 1, …` of an array, in that order, every column kept. -/
def rows {B M N : Nat} (e : Fin B → Fin M) (a : Mat M N) : Mat B N := fun y => a (ix2 (e (y 0)) (y 1))

/-- Row `r` of a product is row `r` of the left factor times the right factor. -/
theorem prod_rows {B M K N : Nat} (e : Fin B → Fin M) (a : Mat M K) (w : Mat K N) :
    prod (rows e a) w = rows e (prod a w) := by
  funext y
  unfold prod rows
  exact Finset.sum_congr rfl fun k _ => rfl

/-- Selecting rows commutes with the entrywise maximum. -/
theorem relu_rows {B M N : Nat} (e : Fin B → Fin M) (a : Mat M N) : relu (rows e a) = rows e (relu a) := rfl

/-- Selecting every row in order changes nothing. -/
theorem rows_id {M N : Nat} (a : Mat M N) : rows (fun p : Fin M => p) a = a :=
  funext fun y => congrArg a (eq_ix2 y).symm

/-- The encoder's hidden layer. -/
def hidden (x : Mat 10000 128) (adj : Mat 10000 10000) (w1 : Mat 128 256) : Mat 10000 256 :=
  relu (prod adj (prod x w1))

/-- The embedding: the first result. -/
def emb (x : Mat 10000 128) (adj : Mat 10000 10000) (w1 : Mat 128 256) (w2 : Mat 256 64) : Mat 10000 64 :=
  prod adj (prod (hidden x adj w1) w2)

/-- The reconstruction: the second result. -/
def recon (x : Mat 10000 128) (adj : Mat 10000 10000) (w1 : Mat 128 256) (w2 : Mat 256 64) (w3 : Mat 64 256)
    (w4 : Mat 256 128) : Mat 10000 128 :=
  prod adj (prod (relu (prod adj (prod (emb x adj w1 w2) w3))) w4)

end Cert.GcnStack

end
-- ==== Proof.KernelStored.lean ====
/-
  What each kernel body stores, as the specification's operations of the blocks it loads, at the ideal instance. There a
  change of float format is the identity and a product on the matrix unit into a zero accumulator is the plain matrix
  product, so the five bodies are: `x·w`; the block itself and `relu (a·t)·w`; `a·t` and `(a·t)·w`; `relu (a·t)·w`;
  `a·t` — with `a` a block of rows of the adjacency and `t`, `w` whole arrays.
-/
import proofs.«157463_g22960895165167_cont_sun_c4_657_3_alg».proof.Proof.Gen.KernelIdeal.Skeleton
import proofs.«157463_g22960895165167_cont_sun_c4_657_3_alg».proof.Proof.GcnSpec
import Idealize.ShloMosaic.PureOps.Ideal.Laws
import Idealize.ShloMosaic.Lib.Pipeline.Value

noncomputable section

namespace Cert.KernelIdeal.Stack

open Cert.KernelIdeal Cert.KernelIdeal.Gen Idealize.ShloMosaic Idealize.ShloMosaic.ValueIdx Cert.Gcn.Dense Cert.GcnStack

/-- At the ideal instance a change of float format keeps every entry. -/
theorem truncf_keep {s : Shape} {φ ψ : FTy} (x : FVec Ideal s φ) (h : ψ.bits < φ.bits) : truncf ψ x h = x := rfl

/-- The entrywise maximum with a splat of the zero word is `relu`. -/
theorem maximumf_zero {s : Shape} (x : FVec Ideal s .f32) :
    maximumf x (broadcast s (Scalar.ofBits (F := Ideal) .f32 0x00000000#32)) = relu x := rfl

/-! ## The eight products on the matrix unit -/

/-- A `400 × 128` by `128 × 256` product on the matrix unit, into a zero accumulator. -/
theorem mm_400_128_256 {φ₁ φ₂ : FTy} (a : FVec Ideal S400x128 φ₁) (b : FVec Ideal S128x256 φ₂) :
    matmul dot_S400x128_S128x256_S400x256_1_0_0_1_n_n none a b (constant S400x256 .f32 0x00000000#32) = prod (M := 400) (K := 128) (N := 256) a b := by
  funext j
  show FloatOps.matmul dot_S400x128_S128x256_S400x256_1_0_0_1_n_n none a b (constant S400x256 .f32 0x00000000#32) j = _
  rw [Ideal.matmul_constant_zero_apply]
  refine sum_contr_eq_prod (M := 400) (K := 128) (N := 256) dot_S400x128_S128x256_S400x256_1_0_0_1_n_n rfl rfl ?_ ?_ ?_ ?_ a b j
  · intro i q
    unfold DotDims.lhsIdx
    rw [dif_neg (show ¬(0 : Fin S400x128.rank) ∈ dot_S400x128_S128x256_S400x256_1_0_0_1_n_n.lhsBatch by decide), dif_pos (show (0 : Fin S400x128.rank) ∈ dot_S400x128_S128x256_S400x256_1_0_0_1_n_n.lhsNonContracting by decide)]
    rfl
  · exact fun i q => dot_S400x128_S128x256_S400x256_1_0_0_1_n_n.lhsIdx_val_of_single rfl i q
  · exact fun i q => dot_S400x128_S128x256_S400x256_1_0_0_1_n_n.rhsIdx_val_of_single rfl i q
  · intro i q
    unfold DotDims.rhsIdx
    rw [dif_neg (show ¬(1 : Fin S128x256.rank) ∈ dot_S400x128_S128x256_S400x256_1_0_0_1_n_n.rhsBatch by decide), dif_pos (show (1 : Fin S128x256.rank) ∈ dot_S400x128_S128x256_S400x256_1_0_0_1_n_n.rhsNonContracting by decide)]
    rfl

/-- A `80 × 10000` by `10000 × 256` product on the matrix unit, into a zero accumulator. -/
theorem mm_80_10000_256 {φ₁ φ₂ : FTy} (a : FVec Ideal S80x10000 φ₁) (b : FVec Ideal S10000x256 φ₂) :
    matmul dot_S80x10000_S10000x256_S80x256_1_0_0_1_n_n none a b (constant S80x256 .f32 0x00000000#32) = prod (M := 80) (K := 10000) (N := 256) a b := by
  funext j
  show FloatOps.matmul dot_S80x10000_S10000x256_S80x256_1_0_0_1_n_n none a b (constant S80x256 .f32 0x00000000#32) j = _
  rw [Ideal.matmul_constant_zero_apply]
  refine sum_contr_eq_prod (M := 80) (K := 10000) (N := 256) dot_S80x10000_S10000x256_S80x256_1_0_0_1_n_n rfl rfl ?_ ?_ ?_ ?_ a b j
  · intro i q
    unfold DotDims.lhsIdx
    rw [dif_neg (show ¬(0 : Fin S80x10000.rank) ∈ dot_S80x10000_S10000x256_S80x256_1_0_0_1_n_n.lhsBatch by decide), dif_pos (show (0 : Fin S80x10000.rank) ∈ dot_S80x10000_S10000x256_S80x256_1_0_0_1_n_n.lhsNonContracting by decide)]
    rfl
  · exact fun i q => dot_S80x10000_S10000x256_S80x256_1_0_0_1_n_n.lhsIdx_val_of_single rfl i q
  · exact fun i q => dot_S80x10000_S10000x256_S80x256_1_0_0_1_n_n.rhsIdx_val_of_single rfl i q
  · intro i q
    unfold DotDims.rhsIdx
    rw [dif_neg (show ¬(1 : Fin S10000x256.rank) ∈ dot_S80x10000_S10000x256_S80x256_1_0_0_1_n_n.rhsBatch by decide), dif_pos (show (1 : Fin S10000x256.rank) ∈ dot_S80x10000_S10000x256_S80x256_1_0_0_1_n_n.rhsNonContracting by decide)]
    rfl

/-- A `80 × 256` by `256 × 64` product on the matrix unit, into a zero accumulator. -/
theorem mm_80_256_64 {φ₁ φ₂ : FTy} (a : FVec Ideal S80x256 φ₁) (b : FVec Ideal S256x64 φ₂) :
    matmul dot_S80x256_S256x64_S80x64_1_0_0_1_n_n none a b (constant S80x64 .f32 0x00000000#32) = prod (M := 80) (K := 256) (N := 64) a b := by
  funext j
  show FloatOps.matmul dot_S80x256_S256x64_S80x64_1_0_0_1_n_n none a b (constant S80x64 .f32 0x00000000#32) j = _
  rw [Ideal.matmul_constant_zero_apply]
  refine sum_contr_eq_prod (M := 80) (K := 256) (N := 64) dot_S80x256_S256x64_S80x64_1_0_0_1_n_n rfl rfl ?_ ?_ ?_ ?_ a b j
  · intro i q
    unfold DotDims.lhsIdx
    rw [dif_neg (show ¬(0 : Fin S80x256.rank) ∈ dot_S80x256_S256x64_S80x64_1_0_0_1_n_n.lhsBatch by decide), dif_pos (show (0 : Fin S80x256.rank) ∈ dot_S80x256_S256x64_S80x64_1_0_0_1_n_n.lhsNonContracting by decide)]
    rfl
  · exact fun i q => dot_S80x256_S256x64_S80x64_1_0_0_1_n_n.lhsIdx_val_of_single rfl i q
  · exact fun i q => dot_S80x256_S256x64_S80x64_1_0_0_1_n_n.rhsIdx_val_of_single rfl i q
  · intro i q
    unfold DotDims.rhsIdx
    rw [dif_neg (show ¬(1 : Fin S256x64.rank) ∈ dot_S80x256_S256x64_S80x64_1_0_0_1_n_n.rhsBatch by decide), dif_pos (show (1 : Fin S256x64.rank) ∈ dot_S80x256_S256x64_S80x64_1_0_0_1_n_n.rhsNonContracting by decide)]
    rfl

/-- A `400 × 10000` by `10000 × 64` product on the matrix unit, into a zero accumulator. -/
theorem mm_400_10000_64 {φ₁ φ₂ : FTy} (a : FVec Ideal S400x10000 φ₁) (b : FVec Ideal S10000x64 φ₂) :
    matmul dot_S400x10000_S10000x64_S400x64_1_0_0_1_n_n none a b (constant S400x64 .f32 0x00000000#32) = prod (M := 400) (K := 10000) (N := 64) a b := by
  funext j
  show FloatOps.matmul dot_S400x10000_S10000x64_S400x64_1_0_0_1_n_n none a b (constant S400x64 .f32 0x00000000#32) j = _
  rw [Ideal.matmul_constant_zero_apply]
  refine sum_contr_eq_prod (M := 400) (K := 10000) (N := 64) dot_S400x10000_S10000x64_S400x64_1_0_0_1_n_n rfl rfl ?_ ?_ ?_ ?_ a b j
  · intro i q
    unfold DotDims.lhsIdx
    rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
    rfl
  · exact fun i q => dot_S400x10000_S10000x64_S400x64_1_0_0_1_n_n.lhsIdx_val_of_single rfl i q
  · exact fun i q => dot_S400x10000_S10000x64_S400x64_1_0_0_1_n_n.rhsIdx_val_of_single rfl i q
  · intro i q
    unfold DotDims.rhsIdx
    rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
    rfl

/-- A `400 × 64` by `64 × 256` product on the matrix unit, into a zero accumulator. -/
theorem mm_400_64_256 {φ₁ φ₂ : FTy} (a : FVec Ideal S400x64 φ₁) (b : FVec Ideal S64x256 φ₂) :
    matmul dot_S400x64_S64x256_S400x256_1_0_0_1_n_n none a b (constant S400x256 .f32 0x00000000#32) = prod (M := 400) (K := 64) (N := 256) a b := by
  funext j
  show FloatOps.matmul dot_S400x64_S64x256_S400x256_1_0_0_1_n_n none a b (constant S400x256 .f32 0x00000000#32) j = _
  rw [Ideal.matmul_constant_zero_apply]
  refine sum_contr_eq_prod (M := 400) (K := 64) (N := 256) dot_S400x64_S64x256_S400x256_1_0_0_1_n_n rfl rfl ?_ ?_ ?_ ?_ a b j
  · intro i q
    unfold DotDims.lhsIdx
    rw [dif_neg (show ¬(0 : Fin S400x64.rank) ∈ dot_S400x64_S64x256_S400x256_1_0_0_1_n_n.lhsBatch by decide), dif_pos (show (0 : Fin S400x64.rank) ∈ dot_S400x64_S64x256_S400x256_1_0_0_1_n_n.lhsNonContracting by decide)]
    rfl
  · exact fun i q => dot_S400x64_S64x256_S400x256_1_0_0_1_n_n.lhsIdx_val_of_single rfl i q
  · exact fun i q => dot_S400x64_S64x256_S400x256_1_0_0_1_n_n.rhsIdx_val_of_single rfl i q
  · intro i q
    unfold DotDims.rhsIdx
    rw [dif_neg (show ¬(1 : Fin S64x256.rank) ∈ dot_S400x64_S64x256_S400x256_1_0_0_1_n_n.rhsBatch by decide), dif_pos (show (1 : Fin S64x256.rank) ∈ dot_S400x64_S64x256_S400x256_1_0_0_1_n_n.rhsNonContracting by decide)]
    rfl

/-- A `400 × 10000` by `10000 × 256` product on the matrix unit, into a zero accumulator. -/
theorem mm_400_10000_256 {φ₁ φ₂ : FTy} (a : FVec Ideal S400x10000 φ₁) (b : FVec Ideal S10000x256 φ₂) :
    matmul dot_S400x10000_S10000x256_S400x256_1_0_0_1_n_n none a b (constant S400x256 .f32 0x00000000#32) = prod (M := 400) (K := 10000) (N := 256) a b := by
  funext j
  show FloatOps.matmul dot_S400x10000_S10000x256_S400x256_1_0_0_1_n_n none a b (constant S400x256 .f32 0x00000000#32) j = _
  rw [Ideal.matmul_constant_zero_apply]
  refine sum_contr_eq_prod (M := 400) (K := 10000) (N := 256) dot_S400x10000_S10000x256_S400x256_1_0_0_1_n_n rfl rfl ?_ ?_ ?_ ?_ a b j
  · intro i q
    unfold DotDims.lhsIdx
    rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
    rfl
  · exact fun i q => dot_S400x10000_S10000x256_S400x256_1_0_0_1_n_n.lhsIdx_val_of_single rfl i q
  · exact fun i q => dot_S400x10000_S10000x256_S400x256_1_0_0_1_n_n.rhsIdx_val_of_single rfl i q
  · intro i q
    unfold DotDims.rhsIdx
    rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
    rfl

/-- A `400 × 256` by `256 × 128` product on the matrix unit, into a zero accumulator. -/
theorem mm_400_256_128 {φ₁ φ₂ : FTy} (a : FVec Ideal S400x256 φ₁) (b : FVec Ideal S256x128 φ₂) :
    matmul dot_S400x256_S256x128_S400x128_1_0_0_1_n_n none a b (constant S400x128 .f32 0x00000000#32) = prod (M := 400) (K := 256) (N := 128) a b := by
  funext j
  show FloatOps.matmul dot_S400x256_S256x128_S400x128_1_0_0_1_n_n none a b (constant S400x128 .f32 0x00000000#32) j = _
  rw [Ideal.matmul_constant_zero_apply]
  refine sum_contr_eq_prod (M := 400) (K := 256) (N := 128) dot_S400x256_S256x128_S400x128_1_0_0_1_n_n rfl rfl ?_ ?_ ?_ ?_ a b j
  · intro i q
    unfold DotDims.lhsIdx
    rw [dif_neg (show ¬(0 : Fin S400x256.rank) ∈ dot_S400x256_S256x128_S400x128_1_0_0_1_n_n.lhsBatch by decide), dif_pos (show (0 : Fin S400x256.rank) ∈ dot_S400x256_S256x128_S400x128_1_0_0_1_n_n.lhsNonContracting by decide)]
    rfl
  · exact fun i q => dot_S400x256_S256x128_S400x128_1_0_0_1_n_n.lhsIdx_val_of_single rfl i q
  · exact fun i q => dot_S400x256_S256x128_S400x128_1_0_0_1_n_n.rhsIdx_val_of_single rfl i q
  · intro i q
    unfold DotDims.rhsIdx
    rw [dif_neg (show ¬(1 : Fin S256x128.rank) ∈ dot_S400x256_S256x128_S400x128_1_0_0_1_n_n.rhsBatch by decide), dif_pos (show (1 : Fin S256x128.rank) ∈ dot_S400x256_S256x128_S400x128_1_0_0_1_n_n.rhsNonContracting by decide)]
    rfl

/-- A `400 × 10000` by `10000 × 128` product on the matrix unit, into a zero accumulator. -/
theorem mm_400_10000_128 {φ₁ φ₂ : FTy} (a : FVec Ideal S400x10000 φ₁) (b : FVec Ideal S10000x128 φ₂) :
    matmul dot_S400x10000_S10000x128_S400x128_1_0_0_1_n_n none a b (constant S400x128 .f32 0x00000000#32) = prod (M := 400) (K := 10000) (N := 128) a b := by
  funext j
  show FloatOps.matmul dot_S400x10000_S10000x128_S400x128_1_0_0_1_n_n none a b (constant S400x128 .f32 0x00000000#32) j = _
  rw [Ideal.matmul_constant_zero_apply]
  refine sum_contr_eq_prod (M := 400) (K := 10000) (N := 128) dot_S400x10000_S10000x128_S400x128_1_0_0_1_n_n rfl rfl ?_ ?_ ?_ ?_ a b j
  · intro i q
    unfold DotDims.lhsIdx
    rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
    rfl
  · exact fun i q => dot_S400x10000_S10000x128_S400x128_1_0_0_1_n_n.lhsIdx_val_of_single rfl i q
  · exact fun i q => dot_S400x10000_S10000x128_S400x128_1_0_0_1_n_n.rhsIdx_val_of_single rfl i q
  · intro i q
    unfold DotDims.rhsIdx
    rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
    rfl

/-! ## The bodies' stored values -/

/-- Region 0 stores `x·w` of its blocks. -/
theorem stored_xw (v0 : Vec Ideal S400x128 .f32) (v1 : Vec Ideal S128x256 .f32) :
    k0_pay1 (F := Ideal) v0 v1 = prod (M := 400) (K := 128) (N := 256) v0 v1 := by
  unfold k0_pay1
  simp only [truncf_keep]
  exact mm_400_128_256 v0 v1

/-- Region 1's first store is the adjacency block itself, in the narrower format. -/
theorem stored_adj (v0 : Vec Ideal S80x10000 .f32) : k1_pay1 (F := Ideal) v0 = v0 := rfl

/-- Region 1's second store is `relu (a·t)·w`. -/
theorem stored_layer1 (v0 : Vec Ideal S80x10000 .f32) (v3 : Vec Ideal S10000x256 .bf16) (v9 : Vec Ideal S256x64 .bf16) :
    k1_pay2 (F := Ideal) v0 v3 v9
      = prod (M := 80) (K := 256) (N := 64) (relu (prod (M := 80) (K := 10000) (N := 256) v0 v3)) v9 := by
  unfold k1_pay2
  simp only [stored_adj, truncf_keep, shapeCast_self, maximumf_zero]
  rw [mm_80_10000_256, mm_80_256_64]

/-- Region 2's first store is `a·t`. -/
theorem stored_emb (v0 : Vec Ideal S400x10000 .bf16) (v2 : Vec Ideal S10000x64 .bf16) :
    k2_pay1 (F := Ideal) v0 v2 = prod (M := 400) (K := 10000) (N := 64) v0 v2 := by
  unfold k2_pay1
  simp only [shapeCast_self]
  exact mm_400_10000_64 v0 v2

/-- Region 2's second store is `(a·t)·w`. -/
theorem stored_layer2 (v0 : Vec Ideal S400x10000 .bf16) (v2 : Vec Ideal S10000x64 .bf16) (v7 : Vec Ideal S64x256 .bf16) :
    k2_pay2 (F := Ideal) v0 v2 v7
      = prod (M := 400) (K := 64) (N := 256) (prod (M := 400) (K := 10000) (N := 64) v0 v2) v7 := by
  unfold k2_pay2
  simp only [stored_emb, truncf_keep, shapeCast_self]
  rw [mm_400_64_256]

/-- Region 3 stores `relu (a·t)·w`. -/
theorem stored_layer3 (v0 : Vec Ideal S400x10000 .bf16) (v2 : Vec Ideal S10000x256 .bf16) (v8 : Vec Ideal S256x128 .bf16) :
    k3_pay1 (F := Ideal) v0 v2 v8
      = prod (M := 400) (K := 256) (N := 128) (relu (prod (M := 400) (K := 10000) (N := 256) v0 v2)) v8 := by
  unfold k3_pay1
  simp only [truncf_keep, shapeCast_self, maximumf_zero]
  rw [mm_400_10000_256, mm_400_256_128]

/-- Region 4 stores `a·t`. -/
theorem stored_out (v0 : Vec Ideal S400x10000 .bf16) (v2 : Vec Ideal S10000x128 .bf16) :
    k4_pay1 (F := Ideal) v0 v2 = prod (M := 400) (K := 10000) (N := 128) v0 v2 := by
  unfold k4_pay1
  simp only [shapeCast_self]
  exact mm_400_10000_128 v0 v2

end Cert.KernelIdeal.Stack

end
-- ==== Proof.BlockRows.lean ====
/-
  A stored block against the whole arrays. Every pallas_call here deals the rows of its first operand in consecutive
  blocks (400 rows at each of 25 grid points, or 80 rows at each of 125) and stages its other operands whole. If the
  first block loaded holds rows `row r ·` of an array `A` and the others are whole arrays, what the body stores at
  `(p, q)` is the whole-array specification at `(row r p, q)`: selecting rows commutes with a product on the left and
  with relu (`prod_rows`, `relu_rows`).
-/
import proofs.«157463_g22960895165167_cont_sun_c4_657_3_alg».proof.Proof.KernelStored

noncomputable section

namespace Cert.KernelIdeal.Stack

open Cert.KernelIdeal Cert.KernelIdeal.Gen Idealize.ShloMosaic Idealize.ShloMosaic.ValueIdx Cert.Gcn.Dense Cert.GcnStack

/-- Row `p` of the `t`-th block of 400 consecutive rows. -/
def row400 (t : Fin 25) (p : Fin 400) : Fin 10000 := ⟨t.val * 400 + p.val, by omega⟩
/-- Row `p` of the `t`-th block of 80 consecutive rows. -/
def row80 (t : Fin 125) (p : Fin 80) : Fin 10000 := ⟨t.val * 80 + p.val, by omega⟩

/-- The origin of a rank-2 rectangle. -/
theorem origin2 : (![0, 0] : Fin 2 → Nat) = fun _ => 0 := funext fun a => by fin_cases a <;> rfl

/-- Region 0: `x·w` of a row block is the row block of `x·w`. -/
theorem block_xw (A : Mat 10000 128) (W : Mat 128 256) (r : Fin 25) (x0 : Vec Ideal S400x128 .f32)
    (x1 : Vec Ideal S128x256 .f32) (h0 : ∀ y, x0 y = A (ix2 (row400 r (y 0)) (y 1))) (h1 : x1 = W) (j : S400x256.Idx) :
    k0_pay1 (F := Ideal) x0 x1 j = prod A W (ix2 (row400 r (j 0)) (j 1)) := by
  obtain rfl : x0 = rows (row400 r) A := funext h0
  subst h1
  rw [stored_xw, prod_rows]
  rfl

/-- Region 1, first store: the adjacency's rows, kept. -/
theorem block_adj (A : Mat 10000 10000) (r : Fin 125) (x0 : Vec Ideal S80x10000 .f32)
    (h0 : ∀ y, x0 y = A (ix2 (row80 r (y 0)) (y 1))) (j : S80x10000.Idx) :
    k1_pay1 (F := Ideal) x0 j = A (ix2 (row80 r (j 0)) (j 1)) := by
  rw [stored_adj]
  exact h0 j

/-- Region 1, second store: `relu (a·t)·w` of a row block. -/
theorem block_layer1 (A : Mat 10000 10000) (T : Mat 10000 256) (W : Mat 256 64) (r : Fin 125)
    (x0 : Vec Ideal S80x10000 .f32) (x1 : Vec Ideal S10000x256 .bf16) (x2 : Vec Ideal S256x64 .bf16)
    (h0 : ∀ y, x0 y = A (ix2 (row80 r (y 0)) (y 1))) (h1 : x1 = T) (h2 : x2 = W) (j : S80x64.Idx) :
    k1_pay2 (F := Ideal) x0 x1 x2 j = prod (relu (prod A T)) W (ix2 (row80 r (j 0)) (j 1)) := by
  obtain rfl : x0 = rows (row80 r) A := funext h0
  subst h1 h2
  rw [stored_layer1, prod_rows, relu_rows, prod_rows]
  rfl

/-- Region 2, first store: `a·t` of a row block. -/
theorem block_emb (A : Mat 10000 10000) (T : Mat 10000 64) (r : Fin 25)
    (x0 : Vec Ideal S400x10000 .bf16) (x1 : Vec Ideal S10000x64 .bf16)
    (h0 : ∀ y, x0 y = A (ix2 (row400 r (y 0)) (y 1))) (h1 : x1 = T) (j : S400x64.Idx) :
    k2_pay1 (F := Ideal) x0 x1 j = prod A T (ix2 (row400 r (j 0)) (j 1)) := by
  obtain rfl : x0 = rows (row400 r) A := funext h0
  subst h1
  rw [stored_emb, prod_rows]
  rfl

/-- Region 2, second store: `(a·t)·w` of a row block. -/
theorem block_layer2 (A : Mat 10000 10000) (T : Mat 10000 64) (W : Mat 64 256) (r : Fin 25)
    (x0 : Vec Ideal S400x10000 .bf16) (x1 : Vec Ideal S10000x64 .bf16) (x2 : Vec Ideal S64x256 .bf16)
    (h0 : ∀ y, x0 y = A (ix2 (row400 r (y 0)) (y 1))) (h1 : x1 = T) (h2 : x2 = W) (j : S400x256.Idx) :
    k2_pay2 (F := Ideal) x0 x1 x2 j = prod (prod A T) W (ix2 (row400 r (j 0)) (j 1)) := by
  obtain rfl : x0 = rows (row400 r) A := funext h0
  subst h1 h2
  rw [stored_layer2, prod_rows, prod_rows]
  rfl

/-- Region 3: `relu (a·t)·w` of a row block. -/
theorem block_layer3 (A : Mat 10000 10000) (T : Mat 10000 256) (W : Mat 256 128) (r : Fin 25)
    (x0 : Vec Ideal S400x10000 .bf16) (x1 : Vec Ideal S10000x256 .bf16) (x2 : Vec Ideal S256x128 .bf16)
    (h0 : ∀ y, x0 y = A (ix2 (row400 r (y 0)) (y 1))) (h1 : x1 = T) (h2 : x2 = W) (j : S400x128.Idx) :
    k3_pay1 (F := Ideal) x0 x1 x2 j = prod (relu (prod A T)) W (ix2 (row400 r (j 0)) (j 1)) := by
  obtain rfl : x0 = rows (row400 r) A := funext h0
  subst h1 h2
  rw [stored_layer3, prod_rows, relu_rows, prod_rows]
  rfl

/-- Region 4: `a·t` of a row block. -/
theorem block_out (A : Mat 10000 10000) (T : Mat 10000 128) (r : Fin 25)
    (x0 : Vec Ideal S400x10000 .bf16) (x1 : Vec Ideal S10000x128 .bf16)
    (h0 : ∀ y, x0 y = A (ix2 (row400 r (y 0)) (y 1))) (h1 : x1 = T) (j : S400x128.Idx) :
    k4_pay1 (F := Ideal) x0 x1 j = prod A T (ix2 (row400 r (j 0)) (j 1)) := by
  obtain rfl : x0 = rows (row400 r) A := funext h0
  subst h1
  rw [stored_out, prod_rows]
  rfl

end Cert.KernelIdeal.Stack

end
-- ==== Proof.Region0.lean ====
/-
  Region 0 (the first pallas_call), from blocks to the array. Each of 25 grid points loads 400 rows of `x` and all of
  `W1` and stores 400 rows of `x·W1`; the blocks tile the result, so after the region it holds `x·W1` of the arrays
  the region found.
-/
import proofs.«157463_g22960895165167_cont_sun_c4_657_3_alg».proof.Proof.Gen.KernelIdeal.Frame
import proofs.«157463_g22960895165167_cont_sun_c4_657_3_alg».proof.Proof.BlockRows

set_option maxRecDepth 16384

noncomputable section

namespace Cert.KernelIdeal.Stack

open Cert.KernelIdeal Cert.KernelIdeal.Gen Idealize.ShloMosaic Idealize.ShloMosaic.TcCoe Idealize.ShloMosaic.ValueIdx
open Cert.Gcn.Dense Cert.GcnStack Idealize.SL.Sem
open Idealize.ShloMosaic.Pipeline (Dat Cfg Window)

variable (V : (c : Dev nD) → (b : Ref sig .tc) → Buf (Elt Ideal) ((c : Thread nD τ).loc b))

/-- Region 0 runs at 25 grid points. -/
theorem points0 : cfg0.N = 25 := N_0

/-- The printed index maps, decided once over the grid: a row-blocked window is at block row `t`, block column 0; a
    window staged whole is at block (0, 0). -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## Window 2: `x·W1` -/

/-- What point `t` writes back is block `t` of the specification of the arrays the region finds. -/
theorem flushed_feat1 (c : Dev nD) (t : Fin cfg0.N) :
    (dat0 V c).flushed 2 t = ((cfg0.win 2).blk t).view.read (Elt Ideal) (prod (M := 10000) (K := 128) (N := 256) (V c main_arg0) (V c main_arg2)) := by
  show (cfg0.win 2).cut (grid0.coords t) ((dat0 V c).after 2 t) = _
  rw [after0_2]
  unfold out0_2
  rw [View.canon_unit_zero origin2]
  simp only [View.ld_unit_zero (S := S400x128) origin2, View.ld_unit_zero (S := S128x256) origin2]
  obtain ⟨e00, e01, e10, e11, e20, e21⟩ := index0 t
  funext j
  show k0_pay1 (F := Ideal) (iblk0 V c 0 t) (iblk0 V c 1 t) j = (prod (M := 10000) (K := 128) (N := 256) (V c main_arg0) (V c main_arg2)) (((cfg0.win 2).blk t).view.emb j)
  refine (block_xw (V c main_arg0) (V c main_arg2) (t.cast points0) (iblk0 V c 0 t) (iblk0 V c 1 t) ?_ ?_ j).trans ?_
  · intro y
    show V c main_arg0 (((cfg0.win 0).blk t).view.emb y) = V c main_arg0 (ix2 (row400 (t.cast points0) (y 0)) (y 1))
    refine congrArg _ (funext fun a => Fin.ext ?_)
    match a with
    | ⟨0, _⟩ => show win0_0.index t (0 : Fin 2) * 400 + 1 * (y 0).val = t.val * 400 + (y 0).val; omega
    | ⟨1, _⟩ => show win0_0.index t (1 : Fin 2) * 128 + 1 * (y 1).val = (y 1).val; omega
  · funext y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega
  · refine congrArg _ (funext fun a => Fin.ext ?_)
    match a with
    | ⟨0, _⟩ => show t.val * 400 + (j 0).val = win0_2.index t (0 : Fin 2) * 400 + 1 * (j 0).val; omega
    | ⟨1, _⟩ => show (j 1).val = win0_2.index t (1 : Fin 2) * 256 + 1 * (j 1).val; omega

/-- An index of the array is in point `t`'s block iff each coordinate is in the block's range on its axis. -/
theorem mem_feat1 (t : Fin cfg0.N) (i : S10000x256.Idx) :
    i ∈ ((cfg0.win 2).blk t).view.set ↔ ∀ a : Fin 2, win0_2.index t a * S400x256.size a ≤ (i a).val ∧ (i a).val < win0_2.index t a * S400x256.size a + S400x256.size a := by
  show i ∈ ((View.whole main_v0).slice (win0_2.rect t)).set ↔ _
  rw [View.set_slice_whole, Rect.mem_set_unit]
  exact Iff.rfl

/-- Every row is in the block of the point numbered by its quotient by the block height: the blocks tile the array. -/
theorem tiled_feat1 (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  have ht : (i 0).val / 400 < cfg0.N := by rw [points0]; omega
  obtain ⟨e00, e01, e10, e11, e20, e21⟩ := index0 ⟨(i 0).val / 400, ht⟩
  have q0 : win0_2.index ⟨(i 0).val / 400, ht⟩ (0 : Fin 2) = (i 0).val / 400 := e20
  refine ⟨⟨(i 0).val / 400, ht⟩, flush0_2 _, ?_⟩
  rw [mem_feat1]
  intro a
  match a with
  | ⟨0, _⟩ => show win0_2.index ⟨(i 0).val / 400, ht⟩ (0 : Fin 2) * 400 ≤ (i 0).val ∧ (i 0).val < win0_2.index ⟨(i 0).val / 400, ht⟩ (0 : Fin 2) * 400 + 400; omega
  | ⟨1, _⟩ => show win0_2.index ⟨(i 0).val / 400, ht⟩ (1 : Fin 2) * 256 ≤ (i 1).val ∧ (i 1).val < win0_2.index ⟨(i 0).val / 400, ht⟩ (1 : Fin 2) * 256 + 256; omega

/-- The array after the region: the specification of the arrays the region finds. -/
theorem array_feat1 (c : Dev nD) : (dat0 V c).arrAt 2 cfg0.N = prod (M := 10000) (K := 128) (N := 256) (V c main_arg0) (V c main_arg2) :=
  (dat0 V c).arrAt_eq_of_cover 2 _ (fun t _ => flushed_feat1 V c t) tiled_feat1

end Cert.KernelIdeal.Stack

end
-- ==== Proof.Region1.lean ====
/-
  Region 1 (the second pallas_call), from blocks to the arrays. Each of 125 grid points loads 80 rows of the adjacency
  `A` and all of `T` and `W`; it stores those 80 rows of `A` unchanged (a copy in the narrower format, which at the
  ideal instance keeps every entry) and 80 rows of `relu (A·T)·W`. Both outputs' blocks tile their arrays.
-/
import proofs.«157463_g22960895165167_cont_sun_c4_657_3_alg».proof.Proof.Gen.KernelIdeal.Frame
import proofs.«157463_g22960895165167_cont_sun_c4_657_3_alg».proof.Proof.BlockRows

set_option maxRecDepth 16384

noncomputable section

namespace Cert.KernelIdeal.Stack

open Cert.KernelIdeal Cert.KernelIdeal.Gen Idealize.ShloMosaic Idealize.ShloMosaic.TcCoe Idealize.ShloMosaic.ValueIdx
open Cert.Gcn.Dense Cert.GcnStack Idealize.SL.Sem
open Idealize.ShloMosaic.Pipeline (Dat Cfg Window)

variable (V : (c : Dev nD) → (b : Ref sig .tc) → Buf (Elt Ideal) ((c : Thread nD τ).loc b))

/-- Region 1 runs at 125 grid points. -/
theorem points1 : cfg1.N = 125 := N_1

/-- The printed index maps, decided once over the grid: a row-blocked window is at block row `t`, block column 0; a
    window staged whole is at block (0, 0). -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-! ## Window 3: the adjacency, copied -/

/-- What point `t` writes back is block `t` of the specification of the arrays the region finds. -/
theorem flushed_adjc (c : Dev nD) (t : Fin cfg1.N) :
    (dat1 V c).flushed 3 t = ((cfg1.win 3).blk t).view.read (Elt Ideal) (V c main_arg1) := by
  show (cfg1.win 3).cut (grid1.coords t) ((dat1 V c).after 3 t) = _
  rw [after1_3]
  unfold out1_3
  rw [View.canon_unit_zero origin2]
  simp only [View.ld_unit_zero (S := S80x10000) origin2]
  obtain ⟨e00, e01, e10, e11, e20, e21, e30, e31, e40, e41⟩ := index1 t
  funext j
  show k1_pay1 (F := Ideal) (iblk1 V c 0 t) j = (V c main_arg1) (((cfg1.win 3).blk t).view.emb j)
  refine (block_adj (V c main_arg1) (t.cast points1) (iblk1 V c 0 t) ?_ j).trans ?_
  · intro y
    show V c main_arg1 (((cfg1.win 0).blk t).view.emb y) = V c main_arg1 (ix2 (row80 (t.cast points1) (y 0)) (y 1))
    refine congrArg _ (funext fun a => Fin.ext ?_)
    match a with
    | ⟨0, _⟩ => show win1_0.index t (0 : Fin 2) * 80 + 1 * (y 0).val = t.val * 80 + (y 0).val; omega
    | ⟨1, _⟩ => show win1_0.index t (1 : Fin 2) * 10000 + 1 * (y 1).val = (y 1).val; omega
  · refine congrArg _ (funext fun a => Fin.ext ?_)
    match a with
    | ⟨0, _⟩ => show t.val * 80 + (j 0).val = win1_3.index t (0 : Fin 2) * 80 + 1 * (j 0).val; omega
    | ⟨1, _⟩ => show (j 1).val = win1_3.index t (1 : Fin 2) * 10000 + 1 * (j 1).val; omega

/-- An index of the array is in point `t`'s block iff each coordinate is in the block's range on its axis. -/
theorem mem_adjc (t : Fin cfg1.N) (i : S10000x10000.Idx) :
    i ∈ ((cfg1.win 3).blk t).view.set ↔ ∀ a : Fin 2, win1_3.index t a * S80x10000.size a ≤ (i a).val ∧ (i a).val < win1_3.index t a * S80x10000.size a + S80x10000.size a := by
  show i ∈ ((View.whole main_v2_0).slice (win1_3.rect t)).set ↔ _
  rw [View.set_slice_whole, Rect.mem_set_unit]
  exact Iff.rfl

/-- Every row is in the block of the point numbered by its quotient by the block height: the blocks tile the array. -/
theorem tiled_adjc (i : S10000x10000.Idx) :
    ∃ t : Fin cfg1.N, (cfg1.win 3).flush t = true ∧ i ∈ ((cfg1.win 3).blk t).view.set := by
  have hi0 : (i 0).val < 10000 := (i 0).isLt
  have hi1 : (i 1).val < 10000 := (i 1).isLt
  have ht : (i 0).val / 80 < cfg1.N := by rw [points1]; omega
  obtain ⟨e00, e01, e10, e11, e20, e21, e30, e31, e40, e41⟩ := index1 ⟨(i 0).val / 80, ht⟩
  have q0 : win1_3.index ⟨(i 0).val / 80, ht⟩ (0 : Fin 2) = (i 0).val / 80 := e30
  refine ⟨⟨(i 0).val / 80, ht⟩, flush1_3 _, ?_⟩
  rw [mem_adjc]
  intro a
  match a with
  | ⟨0, _⟩ => show win1_3.index ⟨(i 0).val / 80, ht⟩ (0 : Fin 2) * 80 ≤ (i 0).val ∧ (i 0).val < win1_3.index ⟨(i 0).val / 80, ht⟩ (0 : Fin 2) * 80 + 80; omega
  | ⟨1, _⟩ => show win1_3.index ⟨(i 0).val / 80, ht⟩ (1 : Fin 2) * 10000 ≤ (i 1).val ∧ (i 1).val < win1_3.index ⟨(i 0).val / 80, ht⟩ (1 : Fin 2) * 10000 + 10000; omega

/-- The array after the region: the specification of the arrays the region finds. -/
theorem array_adjc (c : Dev nD) : (dat1 V c).arrAt 3 cfg1.N = V c main_arg1 :=
  (dat1 V c).arrAt_eq_of_cover 3 _ (fun t _ => flushed_adjc V c t) tiled_adjc

/-! ## Window 4: `relu (A·T)·W` -/

/-- What point `t` writes back is block `t` of the specification of the arrays the region finds. -/
theorem flushed_feat2 (c : Dev nD) (t : Fin cfg1.N) :
    (dat1 V c).flushed 4 t = ((cfg1.win 4).blk t).view.read (Elt Ideal) (prod (M := 10000) (K := 256) (N := 64) (relu (prod (M := 10000) (K := 10000) (N := 256) (V c main_arg1) (V c main_v0))) (V c main_v1)) := by
  show (cfg1.win 4).cut (grid1.coords t) ((dat1 V c).after 4 t) = _
  rw [after1_4]
  unfold out1_4
  rw [View.canon_unit_zero origin2]
  simp only [View.ld_unit_zero (S := S80x10000) origin2, View.ld_unit_zero (S := S10000x256) origin2, View.ld_unit_zero (S := S256x64) origin2]
  obtain ⟨e00, e01, e10, e11, e20, e21, e30, e31, e40, e41⟩ := index1 t
  funext j
  show k1_pay2 (F := Ideal) (iblk1 V c 0 t) (iblk1 V c 1 t) (iblk1 V c 2 t) j = (prod (M := 10000) (K := 256) (N := 64) (relu (prod (M := 10000) (K := 10000) (N := 256) (V c main_arg1) (V c main_v0))) (V c main_v1)) (((cfg1.win 4).blk t).view.emb j)
  refine (block_layer1 (V c main_arg1) (V c main_v0) (V c main_v1) (t.cast points1) (iblk1 V c 0 t) (iblk1 V c 1 t) (iblk1 V c 2 t) ?_ ?_ ?_ j).trans ?_
  · intro y
    show V c main_arg1 (((cfg1.win 0).blk t).view.emb y) = V c main_arg1 (ix2 (row80 (t.cast points1) (y 0)) (y 1))
    refine congrArg _ (funext fun a => Fin.ext ?_)
    match a with
    | ⟨0, _⟩ => show win1_0.index t (0 : Fin 2) * 80 + 1 * (y 0).val = t.val * 80 + (y 0).val; omega
    | ⟨1, _⟩ => show win1_0.index t (1 : Fin 2) * 10000 + 1 * (y 1).val = (y 1).val; omega
  · funext y
    show V c main_v0 (((cfg1.win 1).blk t).view.emb y) = V c main_v0 y
    refine congrArg _ (funext fun a => Fin.ext ?_)
    match a with
    | ⟨0, _⟩ => show win1_1.index t (0 : Fin 2) * 10000 + 1 * (y 0).val = (y 0).val; omega
    | ⟨1, _⟩ => show win1_1.index t (1 : Fin 2) * 256 + 1 * (y 1).val = (y 1).val; omega
  · funext y
    show V c main_v1 (((cfg1.win 2).blk t).view.emb y) = V c main_v1 y
    refine congrArg _ (funext fun a => Fin.ext ?_)
    match a with
    | ⟨0, _⟩ => show win1_2.index t (0 : Fin 2) * 256 + 1 * (y 0).val = (y 0).val; omega
    | ⟨1, _⟩ => show win1_2.index t (1 : Fin 2) * 64 + 1 * (y 1).val = (y 1).val; omega
  · refine congrArg _ (funext fun a => Fin.ext ?_)
    match a with
    | ⟨0, _⟩ => show t.val * 80 + (j 0).val = win1_4.index t (0 : Fin 2) * 80 + 1 * (j 0).val; omega
    | ⟨1, _⟩ => show (j 1).val = win1_4.index t (1 : Fin 2) * 64 + 1 * (j 1).val; omega

/-- An index of the array is in point `t`'s block iff each coordinate is in the block's range on its axis. -/
theorem mem_feat2 (t : Fin cfg1.N) (i : S10000x64.Idx) :
    i ∈ ((cfg1.win 4).blk t).view.set ↔ ∀ a : Fin 2, win1_4.index t a * S80x64.size a ≤ (i a).val ∧ (i a).val < win1_4.index t a * S80x64.size a + S80x64.size a := by
  show i ∈ ((View.whole main_v2_1).slice (win1_4.rect t)).set ↔ _
  rw [View.set_slice_whole, Rect.mem_set_unit]
  exact Iff.rfl

/-- Every row is in the block of the point numbered by its quotient by the block height: the blocks tile the array. -/
theorem tiled_feat2 (i : S10000x64.Idx) :
    ∃ t : Fin cfg1.N, (cfg1.win 4).flush t = true ∧ i ∈ ((cfg1.win 4).blk t).view.set := by
  have hi0 : (i 0).val < 10000 := (i 0).isLt
  have hi1 : (i 1).val < 64 := (i 1).isLt
  have ht : (i 0).val / 80 < cfg1.N := by rw [points1]; omega
  obtain ⟨e00, e01, e10, e11, e20, e21, e30, e31, e40, e41⟩ := index1 ⟨(i 0).val / 80, ht⟩
  have q0 : win1_4.index ⟨(i 0).val / 80, ht⟩ (0 : Fin 2) = (i 0).val / 80 := e40
  refine ⟨⟨(i 0).val / 80, ht⟩, flush1_4 _, ?_⟩
  rw [mem_feat2]
  intro a
  match a with
  | ⟨0, _⟩ => show win1_4.index ⟨(i 0).val / 80, ht⟩ (0 : Fin 2) * 80 ≤ (i 0).val ∧ (i 0).val < win1_4.index ⟨(i 0).val / 80, ht⟩ (0 : Fin 2) * 80 + 80; omega
  | ⟨1, _⟩ => show win1_4.index ⟨(i 0).val / 80, ht⟩ (1 : Fin 2) * 64 ≤ (i 1).val ∧ (i 1).val < win1_4.index ⟨(i 0).val / 80, ht⟩ (1 : Fin 2) * 64 + 64; omega

/-- The array after the region: the specification of the arrays the region finds. -/
theorem array_feat2 (c : Dev nD) : (dat1 V c).arrAt 4 cfg1.N = prod (M := 10000) (K := 256) (N := 64) (relu (prod (M := 10000) (K := 10000) (N := 256) (V c main_arg1) (V c main_v0))) (V c main_v1) :=
  (dat1 V c).arrAt_eq_of_cover 4 _ (fun t _ => flushed_feat2 V c t) tiled_feat2

end Cert.KernelIdeal.Stack

end
-- ==== Proof.Region2.lean ====
/-
  Region 2 (the third pallas_call), from blocks to the arrays. Each of 25 grid points loads 400 rows of the adjacency
  copy `A` and all of `T` and `W`, and stores 400 rows of `A·T` (the embedding, the first result) and 400 rows of
  `(A·T)·W`. Both outputs' blocks tile their arrays.
-/
import proofs.«157463_g22960895165167_cont_sun_c4_657_3_alg».proof.Proof.Gen.KernelIdeal.Frame
import proofs.«157463_g22960895165167_cont_sun_c4_657_3_alg».proof.Proof.BlockRows

set_option maxRecDepth 16384

noncomputable section

namespace Cert.KernelIdeal.Stack

open Cert.KernelIdeal Cert.KernelIdeal.Gen Idealize.ShloMosaic Idealize.ShloMosaic.TcCoe Idealize.ShloMosaic.ValueIdx
open Cert.Gcn.Dense Cert.GcnStack Idealize.SL.Sem
open Idealize.ShloMosaic.Pipeline (Dat Cfg Window)

variable (V : (c : Dev nD) → (b : Ref sig .tc) → Buf (Elt Ideal) ((c : Thread nD τ).loc b))

/-- Region 2 runs at 25 grid points. -/
theorem points2 : cfg2.N = 25 := N_2

/-- The printed index maps, decided once over the grid: a row-blocked window is at block row `t`, block column 0; a
    window staged whole is at block (0, 0). -/
theorem index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-! ## Window 3: `A·T` -/

/-- What point `t` writes back is block `t` of the specification of the arrays the region finds. -/
theorem flushed_emb (c : Dev nD) (t : Fin cfg2.N) :
    (dat2 V c).flushed 3 t = ((cfg2.win 3).blk t).view.read (Elt Ideal) (prod (M := 10000) (K := 10000) (N := 64) (V c main_v2_0) (V c main_v2_1)) := by
  show (cfg2.win 3).cut (grid2.coords t) ((dat2 V c).after 3 t) = _
  rw [after2_3]
  unfold out2_3
  rw [View.canon_unit_zero origin2]
  simp only [View.ld_unit_zero (S := S400x10000) origin2, View.ld_unit_zero (S := S10000x64) origin2]
  obtain ⟨e00, e01, e10, e11, e20, e21, e30, e31, e40, e41⟩ := index2 t
  funext j
  show k2_pay1 (F := Ideal) (iblk2 V c 0 t) (iblk2 V c 1 t) j = (prod (M := 10000) (K := 10000) (N := 64) (V c main_v2_0) (V c main_v2_1)) (((cfg2.win 3).blk t).view.emb j)
  refine (block_emb (V c main_v2_0) (V c main_v2_1) (t.cast points2) (iblk2 V c 0 t) (iblk2 V c 1 t) ?_ ?_ j).trans ?_
  · intro y
    show V c main_v2_0 (((cfg2.win 0).blk t).view.emb y) = V c main_v2_0 (ix2 (row400 (t.cast points2) (y 0)) (y 1))
    refine congrArg _ (funext fun a => Fin.ext ?_)
    match a with
    | ⟨0, _⟩ => show win2_0.index t (0 : Fin 2) * 400 + 1 * (y 0).val = t.val * 400 + (y 0).val; omega
    | ⟨1, _⟩ => show win2_0.index t (1 : Fin 2) * 10000 + 1 * (y 1).val = (y 1).val; omega
  · funext y
    show V c main_v2_1 (((cfg2.win 1).blk t).view.emb y) = V c main_v2_1 y
    refine congrArg _ (funext fun a => Fin.ext ?_)
    match a with
    | ⟨0, _⟩ => show win2_1.index t (0 : Fin 2) * 10000 + 1 * (y 0).val = (y 0).val; omega
    | ⟨1, _⟩ => show win2_1.index t (1 : Fin 2) * 64 + 1 * (y 1).val = (y 1).val; omega
  · refine congrArg _ (funext fun a => Fin.ext ?_)
    match a with
    | ⟨0, _⟩ => show t.val * 400 + (j 0).val = win2_3.index t (0 : Fin 2) * 400 + 1 * (j 0).val; omega
    | ⟨1, _⟩ => show (j 1).val = win2_3.index t (1 : Fin 2) * 64 + 1 * (j 1).val; omega

/-- An index of the array is in point `t`'s block iff each coordinate is in the block's range on its axis. -/
theorem mem_emb (t : Fin cfg2.N) (i : S10000x64.Idx) :
    i ∈ ((cfg2.win 3).blk t).view.set ↔ ∀ a : Fin 2, win2_3.index t a * S400x64.size a ≤ (i a).val ∧ (i a).val < win2_3.index t a * S400x64.size a + S400x64.size a := by
  show i ∈ ((View.whole main_v4_0).slice (win2_3.rect t)).set ↔ _
  rw [View.set_slice_whole, Rect.mem_set_unit]
  exact Iff.rfl

/-- Every row is in the block of the point numbered by its quotient by the block height: the blocks tile the array. -/
theorem tiled_emb (i : S10000x64.Idx) :
    ∃ t : Fin cfg2.N, (cfg2.win 3).flush t = true ∧ i ∈ ((cfg2.win 3).blk t).view.set := by
  have hi0 : (i 0).val < 10000 := (i 0).isLt
  have hi1 : (i 1).val < 64 := (i 1).isLt
  have ht : (i 0).val / 400 < cfg2.N := by rw [points2]; omega
  obtain ⟨e00, e01, e10, e11, e20, e21, e30, e31, e40, e41⟩ := index2 ⟨(i 0).val / 400, ht⟩
  have q0 : win2_3.index ⟨(i 0).val / 400, ht⟩ (0 : Fin 2) = (i 0).val / 400 := e30
  refine ⟨⟨(i 0).val / 400, ht⟩, flush2_3 _, ?_⟩
  rw [mem_emb]
  intro a
  match a with
  | ⟨0, _⟩ => show win2_3.index ⟨(i 0).val / 400, ht⟩ (0 : Fin 2) * 400 ≤ (i 0).val ∧ (i 0).val < win2_3.index ⟨(i 0).val / 400, ht⟩ (0 : Fin 2) * 400 + 400; omega
  | ⟨1, _⟩ => show win2_3.index ⟨(i 0).val / 400, ht⟩ (1 : Fin 2) * 64 ≤ (i 1).val ∧ (i 1).val < win2_3.index ⟨(i 0).val / 400, ht⟩ (1 : Fin 2) * 64 + 64; omega

/-- The array after the region: the specification of the arrays the region finds. -/
theorem array_emb (c : Dev nD) : (dat2 V c).arrAt 3 cfg2.N = prod (M := 10000) (K := 10000) (N := 64) (V c main_v2_0) (V c main_v2_1) :=
  (dat2 V c).arrAt_eq_of_cover 3 _ (fun t _ => flushed_emb V c t) tiled_emb

/-! ## Window 4: `(A·T)·W` -/

/-- What point `t` writes back is block `t` of the specification of the arrays the region finds. -/
theorem flushed_feat3 (c : Dev nD) (t : Fin cfg2.N) :
    (dat2 V c).flushed 4 t = ((cfg2.win 4).blk t).view.read (Elt Ideal) (prod (M := 10000) (K := 64) (N := 256) (prod (M := 10000) (K := 10000) (N := 64) (V c main_v2_0) (V c main_v2_1)) (V c main_v3)) := by
  show (cfg2.win 4).cut (grid2.coords t) ((dat2 V c).after 4 t) = _
  rw [after2_4]
  unfold out2_4
  rw [View.canon_unit_zero origin2]
  simp only [View.ld_unit_zero (S := S400x10000) origin2, View.ld_unit_zero (S := S10000x64) origin2, View.ld_unit_zero (S := S64x256) origin2]
  obtain ⟨e00, e01, e10, e11, e20, e21, e30, e31, e40, e41⟩ := index2 t
  funext j
  show k2_pay2 (F := Ideal) (iblk2 V c 0 t) (iblk2 V c 1 t) (iblk2 V c 2 t) j = (prod (M := 10000) (K := 64) (N := 256) (prod (M := 10000) (K := 10000) (N := 64) (V c main_v2_0) (V c main_v2_1)) (V c main_v3)) (((cfg2.win 4).blk t).view.emb j)
  refine (block_layer2 (V c main_v2_0) (V c main_v2_1) (V c main_v3) (t.cast points2) (iblk2 V c 0 t) (iblk2 V c 1 t) (iblk2 V c 2 t) ?_ ?_ ?_ j).trans ?_
  · intro y
    show V c main_v2_0 (((cfg2.win 0).blk t).view.emb y) = V c main_v2_0 (ix2 (row400 (t.cast points2) (y 0)) (y 1))
    refine congrArg _ (funext fun a => Fin.ext ?_)
    match a with
    | ⟨0, _⟩ => show win2_0.index t (0 : Fin 2) * 400 + 1 * (y 0).val = t.val * 400 + (y 0).val; omega
    | ⟨1, _⟩ => show win2_0.index t (1 : Fin 2) * 10000 + 1 * (y 1).val = (y 1).val; omega
  · funext y
    show V c main_v2_1 (((cfg2.win 1).blk t).view.emb y) = V c main_v2_1 y
    refine congrArg _ (funext fun a => Fin.ext ?_)
    match a with
    | ⟨0, _⟩ => show win2_1.index t (0 : Fin 2) * 10000 + 1 * (y 0).val = (y 0).val; omega
    | ⟨1, _⟩ => show win2_1.index t (1 : Fin 2) * 64 + 1 * (y 1).val = (y 1).val; omega
  · funext y
    show V c main_v3 (((cfg2.win 2).blk t).view.emb y) = V c main_v3 y
    refine congrArg _ (funext fun a => Fin.ext ?_)
    match a with
    | ⟨0, _⟩ => show win2_2.index t (0 : Fin 2) * 64 + 1 * (y 0).val = (y 0).val; omega
    | ⟨1, _⟩ => show win2_2.index t (1 : Fin 2) * 256 + 1 * (y 1).val = (y 1).val; omega
  · refine congrArg _ (funext fun a => Fin.ext ?_)
    match a with
    | ⟨0, _⟩ => show t.val * 400 + (j 0).val = win2_4.index t (0 : Fin 2) * 400 + 1 * (j 0).val; omega
    | ⟨1, _⟩ => show (j 1).val = win2_4.index t (1 : Fin 2) * 256 + 1 * (j 1).val; omega

/-- An index of the array is in point `t`'s block iff each coordinate is in the block's range on its axis. -/
theorem mem_feat3 (t : Fin cfg2.N) (i : S10000x256.Idx) :
    i ∈ ((cfg2.win 4).blk t).view.set ↔ ∀ a : Fin 2, win2_4.index t a * S400x256.size a ≤ (i a).val ∧ (i a).val < win2_4.index t a * S400x256.size a + S400x256.size a := by
  show i ∈ ((View.whole main_v4_1).slice (win2_4.rect t)).set ↔ _
  rw [View.set_slice_whole, Rect.mem_set_unit]
  exact Iff.rfl

/-- Every row is in the block of the point numbered by its quotient by the block height: the blocks tile the array. -/
theorem tiled_feat3 (i : S10000x256.Idx) :
    ∃ t : Fin cfg2.N, (cfg2.win 4).flush t = true ∧ i ∈ ((cfg2.win 4).blk t).view.set := by
  have hi0 : (i 0).val < 10000 := (i 0).isLt
  have hi1 : (i 1).val < 256 := (i 1).isLt
  have ht : (i 0).val / 400 < cfg2.N := by rw [points2]; omega
  obtain ⟨e00, e01, e10, e11, e20, e21, e30, e31, e40, e41⟩ := index2 ⟨(i 0).val / 400, ht⟩
  have q0 : win2_4.index ⟨(i 0).val / 400, ht⟩ (0 : Fin 2) = (i 0).val / 400 := e40
  refine ⟨⟨(i 0).val / 400, ht⟩, flush2_4 _, ?_⟩
  rw [mem_feat3]
  intro a
  match a with
  | ⟨0, _⟩ => show win2_4.index ⟨(i 0).val / 400, ht⟩ (0 : Fin 2) * 400 ≤ (i 0).val ∧ (i 0).val < win2_4.index ⟨(i 0).val / 400, ht⟩ (0 : Fin 2) * 400 + 400; omega
  | ⟨1, _⟩ => show win2_4.index ⟨(i 0).val / 400, ht⟩ (1 : Fin 2) * 256 ≤ (i 1).val ∧ (i 1).val < win2_4.index ⟨(i 0).val / 400, ht⟩ (1 : Fin 2) * 256 + 256; omega

/-- The array after the region: the specification of the arrays the region finds. -/
theorem array_feat3 (c : Dev nD) : (dat2 V c).arrAt 4 cfg2.N = prod (M := 10000) (K := 64) (N := 256) (prod (M := 10000) (K := 10000) (N := 64) (V c main_v2_0) (V c main_v2_1)) (V c main_v3) :=
  (dat2 V c).arrAt_eq_of_cover 4 _ (fun t _ => flushed_feat3 V c t) tiled_feat3

end Cert.KernelIdeal.Stack

end
-- ==== Proof.Region3.lean ====
/-
  Region 3 (the fourth pallas_call), from blocks to the array. Each of 25 grid points loads 400 rows of the adjacency
  copy `A` and all of `T` and `W`, and stores 400 rows of `relu (A·T)·W`; the blocks tile the array.
-/
import proofs.«157463_g22960895165167_cont_sun_c4_657_3_alg».proof.Proof.Gen.KernelIdeal.Frame
import proofs.«157463_g22960895165167_cont_sun_c4_657_3_alg».proof.Proof.BlockRows

set_option maxRecDepth 16384

noncomputable section

namespace Cert.KernelIdeal.Stack

open Cert.KernelIdeal Cert.KernelIdeal.Gen Idealize.ShloMosaic Idealize.ShloMosaic.TcCoe Idealize.ShloMosaic.ValueIdx
open Cert.Gcn.Dense Cert.GcnStack Idealize.SL.Sem
open Idealize.ShloMosaic.Pipeline (Dat Cfg Window)

variable (V : (c : Dev nD) → (b : Ref sig .tc) → Buf (Elt Ideal) ((c : Thread nD τ).loc b))

/-- Region 3 runs at 25 grid points. -/
theorem points3 : cfg3.N = 25 := N_3

/-- The printed index maps, decided once over the grid: a row-blocked window is at block row `t`, block column 0; a
    window staged whole is at block (0, 0). -/
theorem index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-! ## Window 3: `relu (A·T)·W` -/

/-- What point `t` writes back is block `t` of the specification of the arrays the region finds. -/
theorem flushed_feat4 (c : Dev nD) (t : Fin cfg3.N) :
    (dat3 V c).flushed 3 t = ((cfg3.win 3).blk t).view.read (Elt Ideal) (prod (M := 10000) (K := 256) (N := 128) (relu (prod (M := 10000) (K := 10000) (N := 256) (V c main_v2_0) (V c main_v4_1))) (V c main_v5)) := by
  show (cfg3.win 3).cut (grid3.coords t) ((dat3 V c).after 3 t) = _
  rw [after3_3]
  unfold out3_3
  rw [View.canon_unit_zero origin2]
  simp only [View.ld_unit_zero (S := S400x10000) origin2, View.ld_unit_zero (S := S10000x256) origin2, View.ld_unit_zero (S := S256x128) origin2]
  obtain ⟨e00, e01, e10, e11, e20, e21, e30, e31⟩ := index3 t
  funext j
  show k3_pay1 (F := Ideal) (iblk3 V c 0 t) (iblk3 V c 1 t) (iblk3 V c 2 t) j = (prod (M := 10000) (K := 256) (N := 128) (relu (prod (M := 10000) (K := 10000) (N := 256) (V c main_v2_0) (V c main_v4_1))) (V c main_v5)) (((cfg3.win 3).blk t).view.emb j)
  refine (block_layer3 (V c main_v2_0) (V c main_v4_1) (V c main_v5) (t.cast points3) (iblk3 V c 0 t) (iblk3 V c 1 t) (iblk3 V c 2 t) ?_ ?_ ?_ j).trans ?_
  · intro y
    show V c main_v2_0 (((cfg3.win 0).blk t).view.emb y) = V c main_v2_0 (ix2 (row400 (t.cast points3) (y 0)) (y 1))
    refine congrArg _ (funext fun a => Fin.ext ?_)
    match a with
    | ⟨0, _⟩ => show win3_0.index t (0 : Fin 2) * 400 + 1 * (y 0).val = t.val * 400 + (y 0).val; omega
    | ⟨1, _⟩ => show win3_0.index t (1 : Fin 2) * 10000 + 1 * (y 1).val = (y 1).val; omega
  · funext y
    show V c main_v4_1 (((cfg3.win 1).blk t).view.emb y) = V c main_v4_1 y
    refine congrArg _ (funext fun a => Fin.ext ?_)
    match a with
    | ⟨0, _⟩ => show win3_1.index t (0 : Fin 2) * 10000 + 1 * (y 0).val = (y 0).val; omega
    | ⟨1, _⟩ => show win3_1.index t (1 : Fin 2) * 256 + 1 * (y 1).val = (y 1).val; omega
  · funext y
    show V c main_v5 (((cfg3.win 2).blk t).view.emb y) = V c main_v5 y
    refine congrArg _ (funext fun a => Fin.ext ?_)
    match a with
    | ⟨0, _⟩ => show win3_2.index t (0 : Fin 2) * 256 + 1 * (y 0).val = (y 0).val; omega
    | ⟨1, _⟩ => show win3_2.index t (1 : Fin 2) * 128 + 1 * (y 1).val = (y 1).val; omega
  · refine congrArg _ (funext fun a => Fin.ext ?_)
    match a with
    | ⟨0, _⟩ => show t.val * 400 + (j 0).val = win3_3.index t (0 : Fin 2) * 400 + 1 * (j 0).val; omega
    | ⟨1, _⟩ => show (j 1).val = win3_3.index t (1 : Fin 2) * 128 + 1 * (j 1).val; omega

/-- An index of the array is in point `t`'s block iff each coordinate is in the block's range on its axis. -/
theorem mem_feat4 (t : Fin cfg3.N) (i : S10000x128.Idx) :
    i ∈ ((cfg3.win 3).blk t).view.set ↔ ∀ a : Fin 2, win3_3.index t a * S400x128.size a ≤ (i a).val ∧ (i a).val < win3_3.index t a * S400x128.size a + S400x128.size a := by
  show i ∈ ((View.whole main_v6).slice (win3_3.rect t)).set ↔ _
  rw [View.set_slice_whole, Rect.mem_set_unit]
  exact Iff.rfl

/-- Every row is in the block of the point numbered by its quotient by the block height: the blocks tile the array. -/
theorem tiled_feat4 (i : S10000x128.Idx) :
    ∃ t : Fin cfg3.N, (cfg3.win 3).flush t = true ∧ i ∈ ((cfg3.win 3).blk t).view.set := by
  have hi0 : (i 0).val < 10000 := (i 0).isLt
  have hi1 : (i 1).val < 128 := (i 1).isLt
  have ht : (i 0).val / 400 < cfg3.N := by rw [points3]; omega
  obtain ⟨e00, e01, e10, e11, e20, e21, e30, e31⟩ := index3 ⟨(i 0).val / 400, ht⟩
  have q0 : win3_3.index ⟨(i 0).val / 400, ht⟩ (0 : Fin 2) = (i 0).val / 400 := e30
  refine ⟨⟨(i 0).val / 400, ht⟩, flush3_3 _, ?_⟩
  rw [mem_feat4]
  intro a
  match a with
  | ⟨0, _⟩ => show win3_3.index ⟨(i 0).val / 400, ht⟩ (0 : Fin 2) * 400 ≤ (i 0).val ∧ (i 0).val < win3_3.index ⟨(i 0).val / 400, ht⟩ (0 : Fin 2) * 400 + 400; omega
  | ⟨1, _⟩ => show win3_3.index ⟨(i 0).val / 400, ht⟩ (1 : Fin 2) * 128 ≤ (i 1).val ∧ (i 1).val < win3_3.index ⟨(i 0).val / 400, ht⟩ (1 : Fin 2) * 128 + 128; omega

/-- The array after the region: the specification of the arrays the region finds. -/
theorem array_feat4 (c : Dev nD) : (dat3 V c).arrAt 3 cfg3.N = prod (M := 10000) (K := 256) (N := 128) (relu (prod (M := 10000) (K := 10000) (N := 256) (V c main_v2_0) (V c main_v4_1))) (V c main_v5) :=
  (dat3 V c).arrAt_eq_of_cover 3 _ (fun t _ => flushed_feat4 V c t) tiled_feat4

end Cert.KernelIdeal.Stack

end
-- ==== Proof.Region4.lean ====
/-
  Region 4 (the fifth pallas_call), from blocks to the array. Each of 25 grid points loads 400 rows of the adjacency
  copy `A` and all of `T`, and stores 400 rows of `A·T` (the reconstruction, the second result); the blocks tile it.
-/
import proofs.«157463_g22960895165167_cont_sun_c4_657_3_alg».proof.Proof.Gen.KernelIdeal.Frame
import proofs.«157463_g22960895165167_cont_sun_c4_657_3_alg».proof.Proof.BlockRows

set_option maxRecDepth 16384

noncomputable section

namespace Cert.KernelIdeal.Stack

open Cert.KernelIdeal Cert.KernelIdeal.Gen Idealize.ShloMosaic Idealize.ShloMosaic.TcCoe Idealize.ShloMosaic.ValueIdx
open Cert.Gcn.Dense Cert.GcnStack Idealize.SL.Sem
open Idealize.ShloMosaic.Pipeline (Dat Cfg Window)

variable (V : (c : Dev nD) → (b : Ref sig .tc) → Buf (Elt Ideal) ((c : Thread nD τ).loc b))

/-- Region 4 runs at 25 grid points. -/
theorem points4 : cfg4.N = 25 := N_4

/-- The printed index maps, decided once over the grid: a row-blocked window is at block row `t`, block column 0; a
    window staged whole is at block (0, 0). -/
theorem index4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-! ## Window 2: `A·T` -/

/-- What point `t` writes back is block `t` of the specification of the arrays the region finds. -/
theorem flushed_recon (c : Dev nD) (t : Fin cfg4.N) :
    (dat4 V c).flushed 2 t = ((cfg4.win 2).blk t).view.read (Elt Ideal) (prod (M := 10000) (K := 10000) (N := 128) (V c main_v2_0) (V c main_v6)) := by
  show (cfg4.win 2).cut (grid4.coords t) ((dat4 V c).after 2 t) = _
  rw [after4_2]
  unfold out4_2
  rw [View.canon_unit_zero origin2]
  simp only [View.ld_unit_zero (S := S400x10000) origin2, View.ld_unit_zero (S := S10000x128) origin2]
  obtain ⟨e00, e01, e10, e11, e20, e21⟩ := index4 t
  funext j
  show k4_pay1 (F := Ideal) (iblk4 V c 0 t) (iblk4 V c 1 t) j = (prod (M := 10000) (K := 10000) (N := 128) (V c main_v2_0) (V c main_v6)) (((cfg4.win 2).blk t).view.emb j)
  refine (block_out (V c main_v2_0) (V c main_v6) (t.cast points4) (iblk4 V c 0 t) (iblk4 V c 1 t) ?_ ?_ j).trans ?_
  · intro y
    show V c main_v2_0 (((cfg4.win 0).blk t).view.emb y) = V c main_v2_0 (ix2 (row400 (t.cast points4) (y 0)) (y 1))
    refine congrArg _ (funext fun a => Fin.ext ?_)
    match a with
    | ⟨0, _⟩ => show win4_0.index t (0 : Fin 2) * 400 + 1 * (y 0).val = t.val * 400 + (y 0).val; omega
    | ⟨1, _⟩ => show win4_0.index t (1 : Fin 2) * 10000 + 1 * (y 1).val = (y 1).val; omega
  · funext y
    show V c main_v6 (((cfg4.win 1).blk t).view.emb y) = V c main_v6 y
    refine congrArg _ (funext fun a => Fin.ext ?_)
    match a with
    | ⟨0, _⟩ => show win4_1.index t (0 : Fin 2) * 10000 + 1 * (y 0).val = (y 0).val; omega
    | ⟨1, _⟩ => show win4_1.index t (1 : Fin 2) * 128 + 1 * (y 1).val = (y 1).val; omega
  · refine congrArg _ (funext fun a => Fin.ext ?_)
    match a with
    | ⟨0, _⟩ => show t.val * 400 + (j 0).val = win4_2.index t (0 : Fin 2) * 400 + 1 * (j 0).val; omega
    | ⟨1, _⟩ => show (j 1).val = win4_2.index t (1 : Fin 2) * 128 + 1 * (j 1).val; omega

/-- An index of the array is in point `t`'s block iff each coordinate is in the block's range on its axis. -/
theorem mem_recon (t : Fin cfg4.N) (i : S10000x128.Idx) :
    i ∈ ((cfg4.win 2).blk t).view.set ↔ ∀ a : Fin 2, win4_2.index t a * S400x128.size a ≤ (i a).val ∧ (i a).val < win4_2.index t a * S400x128.size a + S400x128.size a := by
  show i ∈ ((View.whole main_v7).slice (win4_2.rect t)).set ↔ _
  rw [View.set_slice_whole, Rect.mem_set_unit]
  exact Iff.rfl

/-- Every row is in the block of the point numbered by its quotient by the block height: the blocks tile the array. -/
theorem tiled_recon (i : S10000x128.Idx) :
    ∃ t : Fin cfg4.N, (cfg4.win 2).flush t = true ∧ i ∈ ((cfg4.win 2).blk t).view.set := by
  have hi0 : (i 0).val < 10000 := (i 0).isLt
  have hi1 : (i 1).val < 128 := (i 1).isLt
  have ht : (i 0).val / 400 < cfg4.N := by rw [points4]; omega
  obtain ⟨e00, e01, e10, e11, e20, e21⟩ := index4 ⟨(i 0).val / 400, ht⟩
  have q0 : win4_2.index ⟨(i 0).val / 400, ht⟩ (0 : Fin 2) = (i 0).val / 400 := e20
  refine ⟨⟨(i 0).val / 400, ht⟩, flush4_2 _, ?_⟩
  rw [mem_recon]
  intro a
  match a with
  | ⟨0, _⟩ => show win4_2.index ⟨(i 0).val / 400, ht⟩ (0 : Fin 2) * 400 ≤ (i 0).val ∧ (i 0).val < win4_2.index ⟨(i 0).val / 400, ht⟩ (0 : Fin 2) * 400 + 400; omega
  | ⟨1, _⟩ => show win4_2.index ⟨(i 0).val / 400, ht⟩ (1 : Fin 2) * 128 ≤ (i 1).val ∧ (i 1).val < win4_2.index ⟨(i 0).val / 400, ht⟩ (1 : Fin 2) * 128 + 128; omega

/-- The array after the region: the specification of the arrays the region finds. -/
theorem array_recon (c : Dev nD) : (dat4 V c).arrAt 2 cfg4.N = prod (M := 10000) (K := 10000) (N := 128) (V c main_v2_0) (V c main_v6) :=
  (dat4 V c).arrAt_eq_of_cover 2 _ (fun t _ => flushed_recon V c t) tiled_recon

end Cert.KernelIdeal.Stack

end
-- ==== Proof.Fold.lean ====
/-
  The two results followed back through @main. The buffer contents at the eight boundaries are a fold from the launch
  memory: a region replaces its windows' arrays by what its write-backs leave and keeps every other buffer; a host
  conversion writes its one result and keeps every other buffer (and at the ideal instance the conversion keeps every
  entry). Reading each intermediate where it is produced and carrying it, unchanged, to where it is consumed:
      T1 = x·W1,   T2 = relu (adj·T1)·W2,   emb = adj·T2,   T3 = emb·W3,   T4 = relu (adj·T3)·W4,   out = adj·T4,
  with the adjacency's copy equal to the adjacency throughout. These are `emb` and `recon` of the specification.
-/
import proofs.«157463_g22960895165167_cont_sun_c4_657_3_alg».proof.Proof.Region0
import proofs.«157463_g22960895165167_cont_sun_c4_657_3_alg».proof.Proof.Region1
import proofs.«157463_g22960895165167_cont_sun_c4_657_3_alg».proof.Proof.Region2
import proofs.«157463_g22960895165167_cont_sun_c4_657_3_alg».proof.Proof.Region3
import proofs.«157463_g22960895165167_cont_sun_c4_657_3_alg».proof.Proof.Region4
import Idealize.ShloMosaic.Lib.StableHlo.Run

set_option maxRecDepth 16384

noncomputable section

namespace Cert.KernelIdeal.Stack

open Cert.KernelIdeal Cert.KernelIdeal.Gen Idealize.ShloMosaic Idealize.ShloMosaic.TcCoe Idealize.ShloMosaic.ValueIdx
open Cert.Gcn.Dense Cert.GcnStack Idealize.SL.Sem Idealize.ShloMosaic.StableHlo
open Idealize.ShloMosaic.Pipeline (Dat Cfg Window)

variable (m : (ℓ : Loc nD τ sig) → Buf (Elt Ideal) ℓ) (ρ : Dev nD → PrngReg)

/-! ## The three host conversions -/

/-- The first conversion writes one buffer and keeps every other. -/
theorem conv1_keeps (W : Valuation τ sig (Elt Ideal)) (b : Ref sig .tc) (hb : b ≠ main_v1) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))
/-- What it writes is its operand, entry by entry. -/
theorem conv1_writes (W : Valuation τ sig (Elt Ideal)) :
    StableHlo.after hostOps1 W (Proc.devRef .tc main_v1) = W (Proc.devRef .tc main_arg3) := by
  after_results; rfl

/-- The second conversion writes one buffer and keeps every other. -/
theorem conv2_keeps (W : Valuation τ sig (Elt Ideal)) (b : Ref sig .tc) (hb : b ≠ main_v3) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne hb))
theorem conv2_writes (W : Valuation τ sig (Elt Ideal)) :
    StableHlo.after hostOps2 W (Proc.devRef .tc main_v3) = W (Proc.devRef .tc main_arg4) := by
  after_results; rfl

/-- The third conversion writes one buffer and keeps every other. -/
theorem conv3_keeps (W : Valuation τ sig (Elt Ideal)) (b : Ref sig .tc) (hb : b ≠ main_v5) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.unary_writes, Finset.mem_singleton]
    exact StableHlo.devRef_ne_of_ne hb))
theorem conv3_writes (W : Valuation τ sig (Elt Ideal)) :
    StableHlo.after hostOps3 W (Proc.devRef .tc main_v5) = W (Proc.devRef .tc main_arg5) := by
  after_results; rfl

/-! ## The arguments' names -/

abbrev argX (c : Dev nD) : Mat 10000 128 := m ((c : Thread nD τ).loc main_arg0)
abbrev argAdj (c : Dev nD) : Mat 10000 10000 := m ((c : Thread nD τ).loc main_arg1)
abbrev argW1 (c : Dev nD) : Mat 128 256 := m ((c : Thread nD τ).loc main_arg2)
abbrev argW2 (c : Dev nD) : Mat 256 64 := m ((c : Thread nD τ).loc main_arg3)
abbrev argW3 (c : Dev nD) : Mat 64 256 := m ((c : Thread nD τ).loc main_arg4)
abbrev argW4 (c : Dev nD) : Mat 256 128 := m ((c : Thread nD τ).loc main_arg5)

/-! ## After region 0 -/

/-- Region 0 leaves `T1 = x·W1`. -/
theorem feat1_at1 (c : Dev nD) :
    W1 m ρ c (Proc.devRef .tc main_v0) = prod (M := 10000) (K := 128) (N := 256) (argX m c) (argW1 m c) :=
  (W1_arr m ρ c 2).trans (array_feat1 (V0 m ρ) c)

/-! ## Region 1's entry and exit -/

theorem adj_at2 (c : Dev nD) : W2 m ρ c (Proc.devRef .tc main_arg1) = argAdj m c :=
  (conv1_keeps (W1 m ρ c) main_arg1 (by decide)).trans (W1_of_ne m ρ c main_arg1 (by decide))
theorem feat1_at2 (c : Dev nD) :
    W2 m ρ c (Proc.devRef .tc main_v0) = prod (M := 10000) (K := 128) (N := 256) (argX m c) (argW1 m c) :=
  (conv1_keeps (W1 m ρ c) main_v0 (by decide)).trans (feat1_at1 m ρ c)
theorem w2_at2 (c : Dev nD) : W2 m ρ c (Proc.devRef .tc main_v1) = argW2 m c :=
  (conv1_writes (W1 m ρ c)).trans (W1_of_ne m ρ c main_arg3 (by decide))

/-- Region 1 leaves the adjacency's copy, equal to the adjacency, -/
theorem adjc_at3 (c : Dev nD) : W3 m ρ c (Proc.devRef .tc main_v2_0) = argAdj m c :=
  ((W3_arr m ρ c 3).trans (array_adjc (V2 m ρ) c)).trans (adj_at2 m ρ c)
/-- and `T2 = relu (adj·T1)·W2`. -/
theorem feat2_at3 (c : Dev nD) :
    W3 m ρ c (Proc.devRef .tc main_v2_1)
      = prod (M := 10000) (K := 256) (N := 64) (hidden (argX m c) (argAdj m c) (argW1 m c)) (argW2 m c) := by
  refine ((W3_arr m ρ c 4).trans (array_feat2 (V2 m ρ) c)).trans ?_
  show prod (M := 10000) (K := 256) (N := 64) (relu (prod (M := 10000) (K := 10000) (N := 256)
      (W2 m ρ c (Proc.devRef .tc main_arg1)) (W2 m ρ c (Proc.devRef .tc main_v0)))) (W2 m ρ c (Proc.devRef .tc main_v1)) = _
  rw [adj_at2, feat1_at2, w2_at2]
  rfl
theorem arg4_at3 (c : Dev nD) : W3 m ρ c (Proc.devRef .tc main_arg4) = argW3 m c :=
  ((W3_of_ne m ρ c main_arg4 (by decide)).trans (conv1_keeps (W1 m ρ c) main_arg4 (by decide))).trans
    (W1_of_ne m ρ c main_arg4 (by decide))
theorem arg5_at3 (c : Dev nD) : W3 m ρ c (Proc.devRef .tc main_arg5) = argW4 m c :=
  ((W3_of_ne m ρ c main_arg5 (by decide)).trans (conv1_keeps (W1 m ρ c) main_arg5 (by decide))).trans
    (W1_of_ne m ρ c main_arg5 (by decide))

/-! ## Region 2's entry and exit -/

theorem adjc_at4 (c : Dev nD) : W4 m ρ c (Proc.devRef .tc main_v2_0) = argAdj m c :=
  (conv2_keeps (W3 m ρ c) main_v2_0 (by decide)).trans (adjc_at3 m ρ c)
theorem feat2_at4 (c : Dev nD) :
    W4 m ρ c (Proc.devRef .tc main_v2_1)
      = prod (M := 10000) (K := 256) (N := 64) (hidden (argX m c) (argAdj m c) (argW1 m c)) (argW2 m c) :=
  (conv2_keeps (W3 m ρ c) main_v2_1 (by decide)).trans (feat2_at3 m ρ c)
theorem w3_at4 (c : Dev nD) : W4 m ρ c (Proc.devRef .tc main_v3) = argW3 m c :=
  (conv2_writes (W3 m ρ c)).trans (arg4_at3 m ρ c)

/-- Region 2 leaves the embedding, the first result, -/
theorem emb_at5 (c : Dev nD) :
    W5 m ρ c (Proc.devRef .tc main_v4_0) = emb (argX m c) (argAdj m c) (argW1 m c) (argW2 m c) := by
  refine ((W5_arr m ρ c 3).trans (array_emb (V4 m ρ) c)).trans ?_
  show prod (M := 10000) (K := 10000) (N := 64) (W4 m ρ c (Proc.devRef .tc main_v2_0)) (W4 m ρ c (Proc.devRef .tc main_v2_1)) = _
  rw [adjc_at4, feat2_at4]
  rfl
/-- and `T3 = emb·W3`; -/
theorem feat3_at5 (c : Dev nD) :
    W5 m ρ c (Proc.devRef .tc main_v4_1)
      = prod (M := 10000) (K := 64) (N := 256) (emb (argX m c) (argAdj m c) (argW1 m c) (argW2 m c)) (argW3 m c) := by
  refine ((W5_arr m ρ c 4).trans (array_feat3 (V4 m ρ) c)).trans ?_
  show prod (M := 10000) (K := 64) (N := 256) (prod (M := 10000) (K := 10000) (N := 64)
      (W4 m ρ c (Proc.devRef .tc main_v2_0)) (W4 m ρ c (Proc.devRef .tc main_v2_1))) (W4 m ρ c (Proc.devRef .tc main_v3)) = _
  rw [adjc_at4, feat2_at4, w3_at4]
  rfl
/-- the adjacency's copy, an input window's array, is as the region found it. -/
theorem adjc_at5 (c : Dev nD) : W5 m ρ c (Proc.devRef .tc main_v2_0) = argAdj m c :=
  ((W5_arr m ρ c 0).trans (((dat2 (V4 m ρ) c).arrAt_in 0 rfl _).trans (A_eq2 (V4 m ρ) c 0))).trans (adjc_at4 m ρ c)
theorem arg5_at5 (c : Dev nD) : W5 m ρ c (Proc.devRef .tc main_arg5) = argW4 m c :=
  ((W5_of_ne m ρ c main_arg5 (by decide)).trans (conv2_keeps (W3 m ρ c) main_arg5 (by decide))).trans (arg5_at3 m ρ c)

/-! ## Region 3's entry and exit -/

theorem adjc_at6 (c : Dev nD) : W6 m ρ c (Proc.devRef .tc main_v2_0) = argAdj m c :=
  (conv3_keeps (W5 m ρ c) main_v2_0 (by decide)).trans (adjc_at5 m ρ c)
theorem feat3_at6 (c : Dev nD) :
    W6 m ρ c (Proc.devRef .tc main_v4_1)
      = prod (M := 10000) (K := 64) (N := 256) (emb (argX m c) (argAdj m c) (argW1 m c) (argW2 m c)) (argW3 m c) :=
  (conv3_keeps (W5 m ρ c) main_v4_1 (by decide)).trans (feat3_at5 m ρ c)
theorem w4_at6 (c : Dev nD) : W6 m ρ c (Proc.devRef .tc main_v5) = argW4 m c :=
  (conv3_writes (W5 m ρ c)).trans (arg5_at5 m ρ c)
theorem emb_at6 (c : Dev nD) :
    W6 m ρ c (Proc.devRef .tc main_v4_0) = emb (argX m c) (argAdj m c) (argW1 m c) (argW2 m c) :=
  (conv3_keeps (W5 m ρ c) main_v4_0 (by decide)).trans (emb_at5 m ρ c)

/-- Region 3 leaves `T4 = relu (adj·T3)·W4`; -/
theorem feat4_at7 (c : Dev nD) :
    W7 m ρ c (Proc.devRef .tc main_v6)
      = prod (M := 10000) (K := 256) (N := 128) (relu (prod (M := 10000) (K := 10000) (N := 256) (argAdj m c)
          (prod (M := 10000) (K := 64) (N := 256) (emb (argX m c) (argAdj m c) (argW1 m c) (argW2 m c)) (argW3 m c))))
          (argW4 m c) := by
  refine ((W7_arr m ρ c 3).trans (array_feat4 (V6 m ρ) c)).trans ?_
  show prod (M := 10000) (K := 256) (N := 128) (relu (prod (M := 10000) (K := 10000) (N := 256)
      (W6 m ρ c (Proc.devRef .tc main_v2_0)) (W6 m ρ c (Proc.devRef .tc main_v4_1)))) (W6 m ρ c (Proc.devRef .tc main_v5)) = _
  rw [adjc_at6, feat3_at6, w4_at6]
theorem adjc_at7 (c : Dev nD) : W7 m ρ c (Proc.devRef .tc main_v2_0) = argAdj m c :=
  ((W7_arr m ρ c 0).trans (((dat3 (V6 m ρ) c).arrAt_in 0 rfl _).trans (A_eq3 (V6 m ρ) c 0))).trans (adjc_at6 m ρ c)
theorem emb_at7 (c : Dev nD) :
    W7 m ρ c (Proc.devRef .tc main_v4_0) = emb (argX m c) (argAdj m c) (argW1 m c) (argW2 m c) :=
  (W7_of_ne m ρ c main_v4_0 (by decide)).trans (emb_at6 m ρ c)

/-! ## After region 4: the two results -/

/-- The first result ends at the embedding. -/
theorem result0_final (c : Dev nD) :
    W8 m ρ c (Proc.devRef .tc main_v4_0) = emb (argX m c) (argAdj m c) (argW1 m c) (argW2 m c) :=
  (W8_of_ne m ρ c main_v4_0 (by decide)).trans (emb_at7 m ρ c)

/-- The second result ends at the reconstruction. -/
theorem result1_final (c : Dev nD) :
    W8 m ρ c (Proc.devRef .tc main_v7)
      = recon (argX m c) (argAdj m c) (argW1 m c) (argW2 m c) (argW3 m c) (argW4 m c) := by
  refine ((W8_arr m ρ c 2).trans (array_recon (V7 m ρ) c)).trans ?_
  show prod (M := 10000) (K := 10000) (N := 128) (W7 m ρ c (Proc.devRef .tc main_v2_0)) (W7 m ρ c (Proc.devRef .tc main_v6)) = _
  rw [adjc_at7, feat4_at7]
  rfl

end Cert.KernelIdeal.Stack

end
-- ==== Proof.RefStack.lean ====
/-
  The reference's two results are the specification's `emb` and `recon`. Its @main is eight host contractions, each a
  plain matrix product at the ideal instance, and two calls of relu, each the entrywise maximum with a broadcast zero
  word; the generated run states each result as that composed term of the arguments.
-/
import proofs.«157463_g22960895165167_cont_sun_c4_657_3_alg».proof.Proof.Gen.ReferenceIdeal.Read
import proofs.«157463_g22960895165167_cont_sun_c4_657_3_alg».proof.Proof.GcnSpec
import Idealize.ShloMosaic.PureOps.Ideal.Laws

noncomputable section

namespace Cert.ReferenceIdeal.Stack

open Cert.ReferenceIdeal Cert.ReferenceIdeal.Gen Idealize.ShloMosaic Idealize.ShloMosaic.ValueIdx Cert.Gcn.Dense Cert.GcnStack

/-! ## The seven contractions -/

/-- The host's `10000 × 128` by `128 × 256` contraction. -/
theorem host_10000_128_256 (a : FVec Ideal S10000x128 .f32) (b : FVec Ideal S128x256 .f32) :
    Host.dotGeneral dot_S10000x128_S128x256_S10000x256_1_0_0_1_n_n none a b = prod (M := 10000) (K := 128) (N := 256) a b := by
  funext j
  show FloatOps.dotGeneral dot_S10000x128_S128x256_S10000x256_1_0_0_1_n_n none .single a b j = _
  rw [Ideal.dotGeneral_apply]
  exact sum_contr_eq_prod (M := 10000) (K := 128) (N := 256) dot_S10000x128_S128x256_S10000x256_1_0_0_1_n_n rfl rfl
    Read.lhs_main_v0_0 Read.lhs_main_v0_1 Read.rhs_main_v0_0 Read.rhs_main_v0_1 a b j

/-- The host's `10000 × 10000` by `10000 × 256` contraction. -/
theorem host_10000_10000_256 (a : FVec Ideal S10000x10000 .f32) (b : FVec Ideal S10000x256 .f32) :
    Host.dotGeneral dot_S10000x10000_S10000x256_S10000x256_1_0_0_1_n_n none a b = prod (M := 10000) (K := 10000) (N := 256) a b := by
  funext j
  show FloatOps.dotGeneral dot_S10000x10000_S10000x256_S10000x256_1_0_0_1_n_n none .single a b j = _
  rw [Ideal.dotGeneral_apply]
  exact sum_contr_eq_prod (M := 10000) (K := 10000) (N := 256) dot_S10000x10000_S10000x256_S10000x256_1_0_0_1_n_n rfl rfl
    Read.lhs_main_v1_0 Read.lhs_main_v1_1 Read.rhs_main_v1_0 Read.rhs_main_v1_1 a b j

/-- The host's `10000 × 256` by `256 × 64` contraction. -/
theorem host_10000_256_64 (a : FVec Ideal S10000x256 .f32) (b : FVec Ideal S256x64 .f32) :
    Host.dotGeneral dot_S10000x256_S256x64_S10000x64_1_0_0_1_n_n none a b = prod (M := 10000) (K := 256) (N := 64) a b := by
  funext j
  show FloatOps.dotGeneral dot_S10000x256_S256x64_S10000x64_1_0_0_1_n_n none .single a b j = _
  rw [Ideal.dotGeneral_apply]
  exact sum_contr_eq_prod (M := 10000) (K := 256) (N := 64) dot_S10000x256_S256x64_S10000x64_1_0_0_1_n_n rfl rfl
    Read.lhs_main_v3_0 Read.lhs_main_v3_1 Read.rhs_main_v3_0 Read.rhs_main_v3_1 a b j

/-- The host's `10000 × 10000` by `10000 × 64` contraction. -/
theorem host_10000_10000_64 (a : FVec Ideal S10000x10000 .f32) (b : FVec Ideal S10000x64 .f32) :
    Host.dotGeneral dot_S10000x10000_S10000x64_S10000x64_1_0_0_1_n_n none a b = prod (M := 10000) (K := 10000) (N := 64) a b := by
  funext j
  show FloatOps.dotGeneral dot_S10000x10000_S10000x64_S10000x64_1_0_0_1_n_n none .single a b j = _
  rw [Ideal.dotGeneral_apply]
  exact sum_contr_eq_prod (M := 10000) (K := 10000) (N := 64) dot_S10000x10000_S10000x64_S10000x64_1_0_0_1_n_n rfl rfl
    Read.lhs_main_v4_0 Read.lhs_main_v4_1 Read.rhs_main_v4_0 Read.rhs_main_v4_1 a b j

/-- The host's `10000 × 64` by `64 × 256` contraction. -/
theorem host_10000_64_256 (a : FVec Ideal S10000x64 .f32) (b : FVec Ideal S64x256 .f32) :
    Host.dotGeneral dot_S10000x64_S64x256_S10000x256_1_0_0_1_n_n none a b = prod (M := 10000) (K := 64) (N := 256) a b := by
  funext j
  show FloatOps.dotGeneral dot_S10000x64_S64x256_S10000x256_1_0_0_1_n_n none .single a b j = _
  rw [Ideal.dotGeneral_apply]
  exact sum_contr_eq_prod (M := 10000) (K := 64) (N := 256) dot_S10000x64_S64x256_S10000x256_1_0_0_1_n_n rfl rfl
    Read.lhs_main_v5_0 Read.lhs_main_v5_1 Read.rhs_main_v5_0 Read.rhs_main_v5_1 a b j

/-- The host's `10000 × 256` by `256 × 128` contraction. -/
theorem host_10000_256_128 (a : FVec Ideal S10000x256 .f32) (b : FVec Ideal S256x128 .f32) :
    Host.dotGeneral dot_S10000x256_S256x128_S10000x128_1_0_0_1_n_n none a b = prod (M := 10000) (K := 256) (N := 128) a b := by
  funext j
  show FloatOps.dotGeneral dot_S10000x256_S256x128_S10000x128_1_0_0_1_n_n none .single a b j = _
  rw [Ideal.dotGeneral_apply]
  exact sum_contr_eq_prod (M := 10000) (K := 256) (N := 128) dot_S10000x256_S256x128_S10000x128_1_0_0_1_n_n rfl rfl
    Read.lhs_main_v8_0 Read.lhs_main_v8_1 Read.rhs_main_v8_0 Read.rhs_main_v8_1 a b j

/-- The host's `10000 × 10000` by `10000 × 128` contraction. -/
theorem host_10000_10000_128 (a : FVec Ideal S10000x10000 .f32) (b : FVec Ideal S10000x128 .f32) :
    Host.dotGeneral dot_S10000x10000_S10000x128_S10000x128_1_0_0_1_n_n none a b = prod (M := 10000) (K := 10000) (N := 128) a b := by
  funext j
  show FloatOps.dotGeneral dot_S10000x10000_S10000x128_S10000x128_1_0_0_1_n_n none .single a b j = _
  rw [Ideal.dotGeneral_apply]
  exact sum_contr_eq_prod (M := 10000) (K := 10000) (N := 128) dot_S10000x10000_S10000x128_S10000x128_1_0_0_1_n_n rfl rfl
    Read.lhs_main_v9_0 Read.lhs_main_v9_1 Read.rhs_main_v9_0 Read.rhs_main_v9_1 a b j

/-- The called relu: the maximum with a zero word broadcast from a scalar. -/
theorem host_relu (x : FVec Ideal S10000x256 .f32) :
    maximumf x (broadcastInDim S10000x256 ![] bcast_S_S10000x256 (constant (F := Ideal) S_ .f32 0x00000000#32)) = relu x := by
  funext i
  show max (x i) (Read.val_main_call0_v0 (F := Ideal) i) = _
  rw [Read.val_main_call0_v0_apply]
  rfl

/-! ## The two results -/

/-- The first result's term is the embedding. -/
theorem result0_eq (x : FVec Ideal S10000x128 .f32) (adj : FVec Ideal S10000x10000 .f32) (w1 : FVec Ideal S128x256 .f32)
    (w2 : FVec Ideal S256x64 .f32) :
    (Host.dotGeneral dot_S10000x10000_S10000x64_S10000x64_1_0_0_1_n_n none adj (Host.dotGeneral dot_S10000x256_S256x64_S10000x64_1_0_0_1_n_n none (maximumf (Host.dotGeneral dot_S10000x10000_S10000x256_S10000x256_1_0_0_1_n_n none adj (Host.dotGeneral dot_S10000x128_S128x256_S10000x256_1_0_0_1_n_n none x w1)) (broadcastInDim S10000x256 ![] bcast_S_S10000x256 (constant (F := Ideal) S_ .f32 0x00000000#32))) w2))
      = emb x adj w1 w2 := by
  unfold emb GcnStack.hidden
  rw [host_10000_128_256, host_10000_10000_256, host_relu, host_10000_256_64, host_10000_10000_64]

/-- The second result's term is the reconstruction. -/
theorem result1_eq (x : FVec Ideal S10000x128 .f32) (adj : FVec Ideal S10000x10000 .f32) (w1 : FVec Ideal S128x256 .f32)
    (w2 : FVec Ideal S256x64 .f32) (w3 : FVec Ideal S64x256 .f32) (w4 : FVec Ideal S256x128 .f32) :
    (Host.dotGeneral dot_S10000x10000_S10000x128_S10000x128_1_0_0_1_n_n none adj (Host.dotGeneral dot_S10000x256_S256x128_S10000x128_1_0_0_1_n_n none (maximumf (Host.dotGeneral dot_S10000x10000_S10000x256_S10000x256_1_0_0_1_n_n none adj (Host.dotGeneral dot_S10000x64_S64x256_S10000x256_1_0_0_1_n_n none (Host.dotGeneral dot_S10000x10000_S10000x64_S10000x64_1_0_0_1_n_n none adj (Host.dotGeneral dot_S10000x256_S256x64_S10000x64_1_0_0_1_n_n none (maximumf (Host.dotGeneral dot_S10000x10000_S10000x256_S10000x256_1_0_0_1_n_n none adj (Host.dotGeneral dot_S10000x128_S128x256_S10000x256_1_0_0_1_n_n none x w1)) (broadcastInDim S10000x256 ![] bcast_S_S10000x256 (constant (F := Ideal) S_ .f32 0x00000000#32))) w2)) w3)) (broadcastInDim S10000x256 ![] bcast_S_S10000x256 (constant (F := Ideal) S_ .f32 0x00000000#32))) w4))
      = recon x adj w1 w2 w3 w4 := by
  unfold recon
  rw [result0_eq, host_10000_64_256, host_10000_10000_256, host_relu, host_10000_256_128, host_10000_10000_128]

end Cert.ReferenceIdeal.Stack

end
-- ==== Proof.lean ====
/-
  A stacked graph-convolution encoder and decoder over a dense 10000 × 10000 adjacency: the kernel against its jnp
  reference, as extended reals.

  Both programs compute, with every product grouped `adj · (h · W)`,
      emb = adj · (relu (adj · (x · W1)) · W2)        out = adj · (relu (adj · (emb · W3)) · W4).
  The reference does it in eight whole-array contractions and two relus. The kernel does it in five pallas_calls, each
  dealing the rows of its left operand in consecutive blocks over a one-dimensional grid and fusing the next layer's
  weight product into the same body; it also narrows the float format of the adjacency and of every intermediate,
  which at the ideal instance keeps every entry. A product on the matrix unit into a zero accumulator and the host's
  contraction are the same finite sum, so the two programs differ only in WHERE each product is cut into row blocks —
  and row `r` of `a · w` depends on row `r` of `a` alone, so a row block of a product is the product of the row block.
  No step moves a factor across a sum or cancels anything: the inputs' finiteness is never used.

  The modules: `GcnSpec` (the specification and the row-selection law), `KernelStored` (what each body stores, as
  the specification's operations of its blocks), `BlockRows` (a stored block against the whole arrays), `Region0` …
  `Region4` (each region's output arrays after its run), `Fold` (the two results followed back through @main's eight
  boundaries), `ResultsRun` (the kernel's run with the two results named), `RefStack` (the reference's two terms).
-/
import proofs.«157463_g22960895165167_cont_sun_c4_657_3_alg».proof.Defs
import proofs.«157463_g22960895165167_cont_sun_c4_657_3_alg».proof.Proof.Gen.Kernel
import proofs.«157463_g22960895165167_cont_sun_c4_657_3_alg».proof.Proof.Gen.Kernel.Frame
import proofs.«157463_g22960895165167_cont_sun_c4_657_3_alg».proof.Proof.Gen.KernelIdeal
import proofs.«157463_g22960895165167_cont_sun_c4_657_3_alg».proof.Proof.Gen.KernelIdeal.Frame
import proofs.«157463_g22960895165167_cont_sun_c4_657_3_alg».proof.Proof.Gen.ReferenceIdeal
import proofs.«157463_g22960895165167_cont_sun_c4_657_3_alg».proof.Proof.Gen.ReferenceIdeal.Read
import proofs.«157463_g22960895165167_cont_sun_c4_657_3_alg».proof.Proof.Gen.Pre_finite_inputs
import proofs.«157463_g22960895165167_cont_sun_c4_657_3_alg».proof.Proof.ResultsRun
import proofs.«157463_g22960895165167_cont_sun_c4_657_3_alg».proof.Proof.Fold
import proofs.«157463_g22960895165167_cont_sun_c4_657_3_alg».proof.Proof.RefStack
import Idealize.ShloMosaic.Adequacy
import Idealize.ShloMosaic.Init

noncomputable section

namespace Cert.Proof

open Idealize.ShloMosaic Idealize.ShloMosaic.TcCoe Idealize.SL.Sem Cert.GcnStack

/-- The kernel as printed runs and keeps its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the arguments both programs end with the embedding and the reconstruction of those
    arguments: the kernel by its regions' arrays followed through @main, the reference by its composed term. -/
theorem algebraic : Cert.algebraic_KernelIdeal_ReferenceIdeal := by
  intro m ρ m' ρ' _ hagree
  refine ⟨fun c => emb (Cert.KernelIdeal.Stack.argX m c) (Cert.KernelIdeal.Stack.argAdj m c)
        (Cert.KernelIdeal.Stack.argW1 m c) (Cert.KernelIdeal.Stack.argW2 m c),
      fun c => recon (Cert.KernelIdeal.Stack.argX m c) (Cert.KernelIdeal.Stack.argAdj m c)
        (Cert.KernelIdeal.Stack.argW1 m c) (Cert.KernelIdeal.Stack.argW2 m c) (Cert.KernelIdeal.Stack.argW3 m c)
        (Cert.KernelIdeal.Stack.argW4 m c), ?_, ?_⟩
  · exact (θ_run Cert.KernelIdeal.defs _ _).mono
      (fun r h c => ⟨(h c).1.trans (Cert.KernelIdeal.Stack.result0_final m ρ c),
        (h c).2.1.trans (Cert.KernelIdeal.Stack.result1_final m ρ c), (h c).2.2⟩)
      (Cert.KernelIdeal.Stack.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [(hagree c).1, (hagree c).2.1, (hagree c).2.2.1, (hagree c).2.2.2.1]
      exact Cert.ReferenceIdeal.Stack.result0_eq _ _ _ _
    · rw [(hagree c).1, (hagree c).2.1, (hagree c).2.2.1, (hagree c).2.2.2.1, (hagree c).2.2.2.2.1, (hagree c).2.2.2.2.2]
      exact Cert.ReferenceIdeal.Stack.result1_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
